-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1x64x64 : Shape := ⟨4, ![512, 1, 64, 64]⟩
abbrev S4096x4096 : Shape := ⟨2, ![4096, 4096]⟩
abbrev S_ : Shape := ⟨0, ![]⟩

class Facts : Prop where
  bcast_S_S512x1x64x64 : S_.BroadcastsInDim S512x1x64x64 (![] : Fin 0 → Fin S512x1x64x64.rank)
  reducesTo_S512x1x64x64_S_d0_1_2_3 : S512x1x64x64.ReducesTo [0, 1, 2, 3] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S512x1x64x64 .f32) (main_arg1 : FVec F S512x1x64x64 .f32) (main_arg2 : FVec F S4096x4096 .f32) (main_arg3 : FVec F S4096x4096 .f32) (main_arg4 : FVec F S4096x4096 .f32) : IVec S_ 1 :=
  let main_v0 : FVec F S512x1x64x64 .f32 := Host.absf main_arg0
  let main_cst : FVec F S_ .f32 := constant S_ .f32 0x7F800000#32
  let main_v1 : FVec F S512x1x64x64 .f32 := broadcastInDim S512x1x64x64 ![] bcast_S_S512x1x64x64 main_cst
  let main_v2 : IVec S512x1x64x64 1 := cmpf .olt main_v0 main_v1
  let main_c : IVec S_ 1 := constantI S_ 1 1#1
  let main_v3 : IVec S_ 1 := (fun x v => Host.reduce IntOp.andi x v reducesTo_S512x1x64x64_S_d0_1_2_3 h_S_) main_v2 main_c
  let main_v4 : FVec F S512x1x64x64 .f32 := Host.absf main_arg1
  let main_cst_0 : FVec F S_ .f32 := constant S_ .f32 0x7F800000#32
  let main_v5 : FVec F S512x1x64x64 .f32 := broadcastInDim S512x1x64x64 ![] bcast_S_S512x1x64x64 main_cst_0
  let main_v6 : IVec S512x1x64x64 1 := cmpf .olt main_v4 main_v5
  let main_c_1 : IVec S_ 1 := constantI S_ 1 1#1
  let main_v7 : IVec S_ 1 := (fun x v => Host.reduce IntOp.andi x v reducesTo_S512x1x64x64_S_d0_1_2_3 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S512x1x64x64 : Shape := ⟨4, ![512, 1, 64, 64]⟩
abbrev S4096x4096 : Shape := ⟨2, ![4096, 4096]⟩
abbrev S512x4096 : Shape := ⟨2, ![512, 4096]⟩
abbrev S512x64x64 : Shape := ⟨3, ![512, 64, 64]⟩
abbrev S256x4096 : Shape := ⟨2, ![256, 4096]⟩
abbrev S512x256 : Shape := ⟨2, ![512, 256]⟩
abbrev S128x4096 : Shape := ⟨2, ![128, 4096]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 15
  | .vmem => 27
  | .smem => 0
  | _ => 0

abbrev bufTy : (tb : Table) → Fin (tcTables nBuf tb) → BufTy
  | .hbm, ⟨0, _⟩ => ⟨S512x1x64x64, .f32⟩
  | .hbm, ⟨1, _⟩ => ⟨S512x1x64x64, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S512x4096, .f32⟩
  | .hbm, ⟨6, _⟩ => ⟨S512x4096, .bf16⟩
  | .hbm, ⟨7, _⟩ => ⟨S512x4096, .bf16⟩
  | .hbm, ⟨8, _⟩ => ⟨S512x4096, .bf16⟩
  | .hbm, ⟨9, _⟩ => ⟨S512x4096, .bf16⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S512x1x64x64, .f32⟩
  | .hbm, ⟨14, _⟩ => ⟨S512x64x64, .f32⟩
  | .local _ .vmem, ⟨0, _⟩ => ⟨S512x4096, .bf16⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .f32⟩
  | .local _ .vmem, ⟨23, _⟩ => ⟨S128x4096, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | _, _ => ⟨S512x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_call0_v2_2 : Ref sig .tc := ⟨.hbm, 9, rfl⟩
abbrev main_call0_v3 : Ref sig .tc := ⟨.hbm, 10, rfl⟩
abbrev main_call0_v4_0 : Ref sig .tc := ⟨.hbm, 11, rfl⟩
abbrev main_call0_v4_1 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S512x1x64x64_S512x4096 : S512x1x64x64.ShapeCasts S512x4096
  bitsLt_bf16_f32 : FTy.bits .bf16 < FTy.bits .f32
  shapeCasts_S512x4096_S512x1x64x64 : S512x4096.ShapeCasts S512x1x64x64
  shapeCasts_S512x4096_S512x64x64 : S512x4096.ShapeCasts S512x64x64
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x64x64 : S128x4096.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  transposes_S128x64x64_p0_2_1_S128x64x64 : S128x64x64.Transposes [0, 2, 1] S128x64x64
  shapeCasts_S128x64x64_S128x4096 : S128x64x64.ShapeCasts S128x4096
  dot_S512x4096_S256x4096_S512x256_1_1_0_0_n_n_wf : DotDims.WF S512x4096 S256x4096 S512x256 [1] [1] [0] [0] [] []
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x4096.size a
  hwx0_4 : ∀ i : grid0.Coords, EltTy.bits .bf16 = 32 ∨ (Rect.block (s := S512x4096) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x4096.size a
  hwx0_5 : ∀ i : grid0.Coords, EltTy.bits .bf16 = 32 ∨ (Rect.block (s := S512x4096) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x4096.size a
  hwx0_6 : ∀ i : grid0.Coords, EltTy.bits .bf16 = 32 ∨ (Rect.block (s := S512x4096) S512x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S512x4096.size a
  hwx1_0 : ∀ i : grid1.Coords, EltTy.bits .bf16 = 32 ∨ (Rect.block (s := S512x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S512x4096.size a
  hwx1_1 : ∀ i : grid1.Coords, EltTy.bits .bf16 = 32 ∨ (Rect.block (s := S512x4096) S128x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S512x4096.size a
  hwx1_2 : ∀ i : grid1.Coords, EltTy.bits .bf16 = 32 ∨ (Rect.block (s := S512x4096) S128x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S512x4096.size a
  hwx1_3 : ∀ i : grid1.Coords, EltTy.bits .f32 = 32 ∨ (Rect.block (s := S512x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S512x4096.size a
  hwx1_4 : ∀ i : grid1.Coords, EltTy.bits .f32 = 32 ∨ (Rect.block (s := S512x4096) S128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S512x4096.size a
  hwx1_5 : ∀ i : grid1.Coords, EltTy.bits .f32 = 32 ∨ (Rect.block (s := S512x4096) S128x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S512x4096.size a
  hwx1_6 : ∀ i : grid1.Coords, EltTy.bits .f32 = 32 ∨ (Rect.block (s := S512x4096) S128x4096.size (cc1_transform_6 i) (hinb1_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_call0_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2_2) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v2_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_1) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2_2) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v0) S128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v4_0) S128x4096.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4_1) S128x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x1x64x64 : Shape := ⟨4, ![512, 1, 64, 64]⟩
abbrev S4096x4096 : Shape := ⟨2, ![4096, 4096]⟩
abbrev S512x4096 : Shape := ⟨2, ![512, 4096]⟩
abbrev S512x64x64 : Shape := ⟨3, ![512, 64, 64]⟩
abbrev S_ : Shape := ⟨0, ![]⟩
abbrev S512x64 : Shape := ⟨2, ![512, 64]⟩
abbrev S512x64x1 : Shape := ⟨3, ![512, 64, 1]⟩

abbrev nBuf : Space → Nat
  | .hbm => 39
  | .vmem => 0
  | .smem => 0
  | _ => 0

abbrev bufTy : (tb : Table) → Fin (tcTables nBuf tb) → BufTy
  | .hbm, ⟨0, _⟩ => ⟨S512x1x64x64, .f32⟩
  | .hbm, ⟨1, _⟩ => ⟨S512x1x64x64, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S512x4096, .f32⟩
  | .hbm, ⟨6, _⟩ => ⟨S4096x4096, .f32⟩
  | .hbm, ⟨7, _⟩ => ⟨S512x4096, .f32⟩
  | .hbm, ⟨8, _⟩ => ⟨S512x64x64, .f32⟩
  | .hbm, ⟨9, _⟩ => ⟨S4096x4096, .f32⟩
  | .hbm, ⟨10, _⟩ => ⟨S512x4096, .f32⟩
  | .hbm, ⟨11, _⟩ => ⟨S512x64x64, .f32⟩
  | .hbm, ⟨12, _⟩ => ⟨S4096x4096, .f32⟩
  | .hbm, ⟨13, _⟩ => ⟨S512x4096, .f32⟩
  | .hbm, ⟨14, _⟩ => ⟨S512x64x64, .f32⟩
  | .hbm, ⟨15, _⟩ => ⟨S512x64x64, .f32⟩
  | .hbm, ⟨16, _⟩ => ⟨S_, .f32⟩
  | .hbm, ⟨17, _⟩ => ⟨S512x64x64, .f32⟩
  | .hbm, ⟨18, _⟩ => ⟨S512x64x64, .f32⟩
  | .hbm, ⟨19, _⟩ => ⟨S512x64x64, .f32⟩
  | .hbm, ⟨20, _⟩ => ⟨S512x64x64, .f32⟩
  | .hbm, ⟨21, _⟩ => ⟨S_, .f32⟩
  | .hbm, ⟨22, _⟩ => ⟨S512x64, .f32⟩
  | .hbm, ⟨23, _⟩ => ⟨S_, .f32⟩
  | .hbm, ⟨24, _⟩ => ⟨S512x64, .f32⟩
  | .hbm, ⟨25, _⟩ => ⟨S512x64, .f32⟩
  | .hbm, ⟨26, _⟩ => ⟨S512x64x1, .f32⟩
  | .hbm, ⟨27, _⟩ => ⟨S512x64x64, .f32⟩
  | .hbm, ⟨28, _⟩ => ⟨S512x64x64, .f32⟩
  | .hbm, ⟨29, _⟩ => ⟨S512x64x64, .f32⟩
  | .hbm, ⟨30, _⟩ => ⟨S_, .f32⟩
  | .hbm, ⟨31, _⟩ => ⟨S512x64, .f32⟩
  | .hbm, ⟨32, _⟩ => ⟨S512x64x1, .f32⟩
  | .hbm, ⟨33, _⟩ => ⟨S512x64x64, .f32⟩
  | .hbm, ⟨34, _⟩ => ⟨S512x64x64, .f32⟩
  | .hbm, ⟨35, _⟩ => ⟨S512x64x64, .f32⟩
  | .hbm, ⟨36, _⟩ => ⟨S512x64x64, .f32⟩
  | .hbm, ⟨37, _⟩ => ⟨S512x1x64x64, .f32⟩
  | .hbm, ⟨38, _⟩ => ⟨S512x1x64x64, .f32⟩
  | _, _ => ⟨S512x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  shapeCasts_S512x1x64x64_S512x4096 : S512x1x64x64.ShapeCasts S512x4096
  transposes_S4096x4096_S4096x4096_1_0 : S4096x4096.Transposes [1, 0] S4096x4096
  shapeCasts_S512x4096_S512x64x64 : S512x4096.ShapeCasts S512x64x64
  bcast_S_S512x64x64 : S_.BroadcastsInDim S512x64x64 (![] : Fin 0 → Fin S512x64x64.rank)
  shapeCasts_S512x1x64x64_S512x64x64 : S512x1x64x64.ShapeCasts S512x64x64
  reducesTo_S512x64x64_S512x64_d2 : S512x64x64.ReducesTo [2] S512x64
  h_S_ : 0 < S_.numel
  bcast_S_S512x64 : S_.BroadcastsInDim S512x64 (![] : Fin 0 → Fin S512x64.rank)
  bcast_S512x64_S512x64x1_0_1 : S512x64.BroadcastsInDim S512x64x1 (![0, 1] : Fin 2 → Fin S512x64x1.rank)
  bcast_S512x64x1_S512x64x64_0_1_2 : S512x64x1.BroadcastsInDim S512x64x64 (![0, 1, 2] : Fin 3 → Fin S512x64x64.rank)
  transposes_S512x64x64_S512x64x64_0_2_1 : S512x64x64.Transposes [0, 2, 1] S512x64x64
  shapeCasts_S512x64x64_S512x1x64x64 : S512x64x64.ShapeCasts S512x1x64x64
  dot_S512x4096_S4096x4096_S512x4096_1_0_0_1_n_n_wf : DotDims.WF S512x4096 S4096x4096 S512x4096 [1] [0] [0] [1] [] []
  dot_S512x64x64_S512x64x64_S512x64x64_2_2_1_1_0_0_wf : DotDims.WF S512x64x64 S512x64x64 S512x64x64 [2] [2] [1] [1] [0] [0]
  dot_S512x64x64_S512x64x64_S512x64x64_2_1_1_2_0_0_wf : DotDims.WF S512x64x64 S512x64x64 S512x64x64 [2] [1] [1] [2] [0] [0]

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x64x64_S512x64x64_S512x64x64_2_2_1_1_0_0 : DotDims S512x64x64 S512x64x64 S512x64x64 where
  lhsContracting := [2]
  rhsContracting := [2]
  lhsNonContracting := [1]
  rhsNonContracting := [1]
  lhsBatch := [0]
  rhsBatch := [0]
  wf := dot_S512x64x64_S512x64x64_S512x64x64_2_2_1_1_0_0_wf
def dot_S512x64x64_S512x64x64_S512x64x64_2_1_1_2_0_0 : DotDims S512x64x64 S512x64x64 S512x64x64 where
  lhsContracting := [2]
  rhsContracting := [1]
  lhsNonContracting := [1]
  rhsNonContracting := [2]
  lhsBatch := [0]
  rhsBatch := [0]
  wf := dot_S512x64x64_S512x64x64_S512x64x64_2_1_1_2_0_0_wf

class Facts : Prop extends Facts₀ where

variable [Facts]
-- ==== Proof.Attention.lean ====
/-
  The function both programs compute, on extended reals, stated once and over no program.

  A batch of 512 rows; each row of 4096 numbers is read as a 64 × 64 tile, entry (h, f) at position 64·h + f.
  Three linear layers without bias give q, k, v from a row x:  y(n) = Σ_k x(k) · W(n, k).
  Head h is scored against head g by  s(h, g) = (Σ_f q(h, f) · k(g, f)) · c · mask(h, g),  each row s(h, ·) is
  normalized by a softmax whose maximum is taken from the value lo,
      w(h, g) = exp(s(h, g) − max_g' s(h, g')) / Σ_g' exp(s(h, g') − max …),
  the values are mixed,  o(h, f) = Σ_g w(h, g) · v(g, f),  and the first result at position 64·f + h is
  x(64·f + h) · o(h, f); the second result is w itself.
  c and lo stay parameters: both programs spell them with the same words, so they are never evaluated.
-/
import Idealize.ShloMosaic.PureOps.Ideal
import Idealize.ShloMosaic.Lib.ValueIdx

noncomputable section

namespace Cert.Attention

open Idealize.ShloMosaic Idealize.ShloMosaic.ValueIdx
open scoped BigOperators

/-- A [512, 1, 64, 64] array, a [512, 4096] array, a [512, 64, 64] array and a [4096, 4096] weight, as functions. -/
abbrev A4 := (⟨4, ![512, 1, 64, 64]⟩ : Shape).Idx → EReal
abbrev M := (⟨2, ![512, 4096]⟩ : Shape).Idx → EReal
abbrev A3 := (⟨3, ![512, 64, 64]⟩ : Shape).Idx → EReal
abbrev W2 := (⟨2, ![4096, 4096]⟩ : Shape).Idx → EReal

/-- The position of entry (h, f) of a 64 × 64 tile laid out row by row. -/
def flat (h f : Fin 64) : Fin 4096 := ⟨h.val * 64 + f.val, by have := h.isLt; have := f.isLt; omega⟩
/-- The tile row and the tile column of a position. -/
def hi (j : Fin 4096) : Fin 64 := ⟨j.val / 64, by have := j.isLt; omega⟩
def lo (j : Fin 4096) : Fin 64 := ⟨j.val % 64, by omega⟩

@[simp] theorem flat_val (h f : Fin 64) : (flat h f).val = h.val * 64 + f.val := rfl
@[simp] theorem hi_val (j : Fin 4096) : (hi j).val = j.val / 64 := rfl
@[simp] theorem lo_val (j : Fin 4096) : (lo j).val = j.val % 64 := rfl
theorem hi_flat (h f : Fin 64) : hi (flat h f) = h := Fin.ext (by have := f.isLt; simp only [hi_val, flat_val]; omega)
theorem lo_flat (h f : Fin 64) : lo (flat h f) = f := Fin.ext (by have := f.isLt; simp only [lo_val, flat_val]; omega)
theorem flat_hi_lo (j : Fin 4096) : flat (hi j) (lo j) = j := Fin.ext (by simp only [flat_val, hi_val, lo_val]; omega)

/-- A linear layer without bias on one row: y(n) = Σ_k x(k) · W(n, k). -/
def linear (x : Fin 4096 → EReal) (W : Fin 4096 → Fin 4096 → EReal) (n : Fin 4096) : EReal :=
  ∑ k : Fin 4096, x k * W n k

/-- The masked, scaled score of head h against head g. -/
def score (c : EReal) (q k mask : Fin 4096 → EReal) (h g : Fin 64) : EReal :=
  (∑ f : Fin 64, q (flat h f) * k (flat g f)) * c * mask (flat h g)

/-- The maximum of 64 numbers, taken from the value b. -/
def peak (b : EReal) (s : Fin 64 → EReal) : EReal := (Finset.univ : Finset (Fin 64)).fold max b s
/-- The exponential of an entry's distance to the maximum. -/
def lifted (b : EReal) (s : Fin 64 → EReal) (g : Fin 64) : EReal := Ideal.exp (s g - peak b s)
/-- The softmax of 64 numbers. -/
def soft (b : EReal) (s : Fin 64 → EReal) (g : Fin 64) : EReal :=
  Ideal.div (lifted b s g) (∑ g' : Fin 64, lifted b s g')

/-- The values mixed by the weights: o(h, f) = Σ_g w(h, g) · v(g, f). -/
def mixed (w : Fin 64 → Fin 64 → EReal) (v : Fin 4096 → EReal) (h f : Fin 64) : EReal :=
  ∑ g : Fin 64, w h g * v (flat g f)

/-- Row b of a [512, 4096] array, and a weight as a function of two coordinates. -/
def rowOf (A : M) (b : Fin 512) (j : Fin 4096) : EReal := A (ix2 b j)
def mat (W : W2) (n k : Fin 4096) : EReal := W (ix2 n k)

/-- A [512, 1, 64, 64] array read as [512, 4096]. -/
def flatten (X : A4) : M := fun i => X (ix4 (i 0) 0 (hi (i 1)) (lo (i 1)))

/-- A linear layer on every row. -/
def project (XF : M) (W : W2) : M := fun i => linear (rowOf XF (i 0)) (mat W) (i 1)

/-- The attention weights of every row, entry (h, g) at position 64·h + g. -/
def attnWeights (c b : EReal) (Q K Mask : M) : M := fun i =>
  soft b (score c (rowOf Q (i 0)) (rowOf K (i 0)) (rowOf Mask (i 0)) (hi (i 1))) (lo (i 1))

/-- The gated output of every row: at position 64·f + h, x there times the mixed value o(h, f). -/
def attnOut (c b : EReal) (Q K V Mask XF : M) : M := fun i =>
  XF i * mixed (fun h g => soft b (score c (rowOf Q (i 0)) (rowOf K (i 0)) (rowOf Mask (i 0)) h) g)
    (rowOf V (i 0)) (lo (i 1)) (hi (i 1))

/-- The first result, as a [512, 1, 64, 64] array of the five arguments. -/
def result0 (c b : EReal) (X Mask : A4) (Wq Wk Wv : W2) : A4 := fun i =>
  attnOut c b (project (flatten X) Wq) (project (flatten X) Wk) (project (flatten X) Wv) (flatten Mask) (flatten X)
    (ix2 (i 0) (flat (i 2) (i 3)))

/-- The second result, as a [512, 64, 64] array. -/
def result1 (c b : EReal) (X Mask : A4) (Wq Wk : W2) : A3 := fun i =>
  attnWeights c b (project (flatten X) Wq) (project (flatten X) Wk) (flatten Mask) (ix2 (i 0) (flat (i 1) (i 2)))

end Cert.Attention

end
-- ==== Proof.HostSide.lean ====
/-
  The host side of the kernel program on extended reals: what its buffers hold where the two regions are entered
  and what the two results hold at the return, read through the reshapes and the conversion the host performs
  between the regions.
-/
import proofs.«139184_j47579647705483_2_alg».proof.Proof.Gen.KernelIdeal.Frame
import proofs.«139184_j47579647705483_2_alg».proof.Proof.Attention
import Idealize.ShloMosaic.Lib.Pipeline.Value
import Idealize.ShloMosaic.Lib.ValueIdx
import Idealize.ShloMosaic.Lib.StableHlo.Run

set_option maxRecDepth 16384

noncomputable section

namespace Cert.KernelIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The run: every execution ends with the two results at the last boundary's contents -/

-- the launch lemma's implicit arguments are found by unifying its conclusion with this one, which takes unfolding
-- plain definitions in a metavariable's type
set_option backward.isDefEq.respectTransparency.types false in
/-- From any memory with zero counters every weakly fair execution of the program terminates without a fault, and
    in every final state the two result buffers hold the contents of the last segment boundary while the five
    arguments hold what they were launched with. -/
theorem run_results : θ_run defs (onTc (τ := τ) (main (F := Ideal))) ⟨m, fun _ => 0, ρ⟩ (fun r => ∀ c : Dev nD,
      r.2.mem ((c.tc : Thread nD τ).loc main_v0_0) = Gen.W5 m ρ c (Proc.devRef .tc main_v0_0)
      ∧ r.2.mem ((c.tc : Thread nD τ).loc main_v0_1) = Gen.W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W5 m ρ c) s')
      isplitl [Hh] <;> iassumption)
    (hQ := fun s h c =>
      ⟨h c _ (Gen.mem_uc main_v0_0 (by decide)),
       h c _ (Gen.mem_uc main_v0_1 (by decide)),
       (h c _ (Gen.mem_uc main_arg0 (by decide))).trans (Gen.W5_main_arg0 m ρ c),
       (h c _ (Gen.mem_uc main_arg1 (by decide))).trans (Gen.W5_main_arg1 m ρ c),
       (h c _ (Gen.mem_uc main_arg2 (by decide))).trans (Gen.W5_main_arg2 m ρ c),
       (h c _ (Gen.mem_uc main_arg3 (by decide))).trans (Gen.W5_main_arg3 m ρ c),
       (h c _ (Gen.mem_uc main_arg4 (by decide))).trans (Gen.W5_main_arg4 m ρ c)⟩)

/-! ## Reading a reshape at an index

A row of 4096 numbers is a 64 × 64 tile laid out row by row, so the three reshapes of the program move an entry
between position 64·h + f of a row and coordinates (h, f) of a tile without changing it. -/

/-- Position j of a row of 4096 is entry (j / 64, j % 64) of the 64 × 64 tile: a [512, 1, 64, 64] array read as
    [512, 4096] at i is the array at (i 0, 0, hi (i 1), lo (i 1)). -/
theorem shapeCast_flatten (X : FVec Ideal S512x1x64x64 .f32) (i : S512x4096.Idx) :
    shapeCast S512x4096 X Gen.shapeCasts_S512x1x64x64_S512x4096 i = Cert.Attention.flatten X i := by
  refine shapeCast_apply X Gen.shapeCasts_S512x1x64x64_S512x4096 i
    (ix4 (i 0) 0 (Cert.Attention.hi (i 1)) (Cert.Attention.lo (i 1))) ?_
  rw [Shape.rowMajor_val_four, Shape.rowMajor_val_two]
  have h1 : (i 1).val < 4096 := (i 1).isLt
  show ((((i 0).val * 1 + 0) * 64 + (i 1).val / 64) * 64 + (i 1).val % 64) = (i 0).val * 4096 + (i 1).val
  omega

/-- A [512, 4096] array read as [512, 1, 64, 64] at i is the array at row i 0, position 64 · i 2 + i 3. -/
theorem shapeCast_tile4 (Y : FVec Ideal S512x4096 .f32) (i : S512x1x64x64.Idx) :
    shapeCast S512x1x64x64 Y Gen.shapeCasts_S512x4096_S512x1x64x64 i = Y (ix2 (i 0) (Cert.Attention.flat (i 2) (i 3))) := by
  refine shapeCast_apply Y Gen.shapeCasts_S512x4096_S512x1x64x64 i (ix2 (i 0) (Cert.Attention.flat (i 2) (i 3))) ?_
  rw [Shape.rowMajor_val_four, Shape.rowMajor_val_two]
  have h1 : (i 1).val < 1 := (i 1).isLt
  show (i 0).val * 4096 + ((i 2).val * 64 + (i 3).val) = (((i 0).val * 1 + (i 1).val) * 64 + (i 2).val) * 64 + (i 3).val
  omega

/-- A [512, 4096] array read as [512, 64, 64] at i is the array at row i 0, position 64 · i 1 + i 2. -/
theorem shapeCast_tile3 (Y : FVec Ideal S512x4096 .f32) (i : S512x64x64.Idx) :
    shapeCast S512x64x64 Y Gen.shapeCasts_S512x4096_S512x64x64 i = Y (ix2 (i 0) (Cert.Attention.flat (i 1) (i 2))) := by
  refine shapeCast_apply Y Gen.shapeCasts_S512x4096_S512x64x64 i (ix2 (i 0) (Cert.Attention.flat (i 1) (i 2))) ?_
  rw [Shape.rowMajor_val_three, Shape.rowMajor_val_two]
  show (i 0).val * 4096 + ((i 1).val * 64 + (i 2).val) = ((i 0).val * 64 + (i 1).val) * 64 + (i 2).val
  omega

/-! ## The first region's entry

Before the first region the host flattens the first argument and converts it to the narrower format, which is the
identity on extended reals; it writes none of the three weights. -/

/-- The second host operation's result, as the operations' term over the first argument. -/
theorem entry0_x_term (c : Dev nD) : (Gen.V1 m ρ c main_call0_v1 : FVec Ideal S512x4096 .bf16)
    = truncf (F := Ideal) .bf16 (shapeCast S512x4096 (m ((c : Thread nD τ).loc main_arg0) : FVec Ideal S512x1x64x64 .f32) Gen.shapeCasts_S512x1x64x64_S512x4096) Gen.bitsLt_bf16_f32 := by
  show StableHlo.after Gen.hostOps0 _ (Proc.devRef .tc main_call0_v1) = _
  after_results
  rfl

/-- The first region's first input is the first argument flattened. -/
theorem entry0_x (c : Dev nD) : Gen.V1 m ρ c main_call0_v1 = Cert.Attention.flatten (m ((c : Thread nD τ).loc main_arg0)) := by
  refine (entry0_x_term m ρ c).trans ?_
  funext i
  exact (truncf_apply (φ := .f32) (ψ := .bf16) _ Gen.bitsLt_bf16_f32 i).trans (shapeCast_flatten _ i)

/-- The three weights enter the first region as launched. -/
theorem entry0_wq (c : Dev nD) : Gen.V1 m ρ c main_arg2 = m ((c : Thread nD τ).loc main_arg2) := by
  show StableHlo.after Gen.hostOps0 _ (Proc.devRef .tc main_arg2) = _
  after_results
theorem entry0_wk (c : Dev nD) : Gen.V1 m ρ c main_arg3 = m ((c : Thread nD τ).loc main_arg3) := by
  show StableHlo.after Gen.hostOps0 _ (Proc.devRef .tc main_arg3) = _
  after_results
theorem entry0_wv (c : Dev nD) : Gen.V1 m ρ c main_arg4 = m ((c : Thread nD τ).loc main_arg4) := by
  show StableHlo.after Gen.hostOps0 _ (Proc.devRef .tc main_arg4) = _
  after_results

/-! ## The second region's entry

Between the regions the host only flattens the mask. The first region's three outputs are what its write-backs
left, the flattened first argument is what the host wrote before the first region, and no region window is over it. -/

/-- The first region's three outputs enter the second region as its write-backs left them. -/
theorem entry1_q (c : Dev nD) : Gen.V3 m ρ c main_call0_v2_0 = (Gen.dat0 (Gen.V1 m ρ) c).arrAt 4 cfg0.N := by
  show StableHlo.after Gen.hostOps1 _ (Proc.devRef .tc main_call0_v2_0) = _
  after_results
  exact Gen.W2_arr m ρ c 4
theorem entry1_k (c : Dev nD) : Gen.V3 m ρ c main_call0_v2_1 = (Gen.dat0 (Gen.V1 m ρ) c).arrAt 5 cfg0.N := by
  show StableHlo.after Gen.hostOps1 _ (Proc.devRef .tc main_call0_v2_1) = _
  after_results
  exact Gen.W2_arr m ρ c 5
theorem entry1_v (c : Dev nD) : Gen.V3 m ρ c main_call0_v2_2 = (Gen.dat0 (Gen.V1 m ρ) c).arrAt 6 cfg0.N := by
  show StableHlo.after Gen.hostOps1 _ (Proc.devRef .tc main_call0_v2_2) = _
  after_results
  exact Gen.W2_arr m ρ c 6

/-- The flattened mask as the host operation's term over the second argument, which nothing wrote before. -/
theorem entry1_mask_term (c : Dev nD) : (Gen.V3 m ρ c main_call0_v3 : FVec Ideal S512x4096 .f32)
    = shapeCast S512x4096 (m ((c : Thread nD τ).loc main_arg1) : FVec Ideal S512x1x64x64 .f32) Gen.shapeCasts_S512x1x64x64_S512x4096 := by
  show StableHlo.after Gen.hostOps1 _ (Proc.devRef .tc main_call0_v3) = _
  after_results
  rw [Gen.W2_of_ne m ρ c main_arg1 (by decide)]
  show shapeCast _ (StableHlo.after Gen.hostOps0 _ (Proc.devRef .tc main_arg1)) _ = _
  after_results
  rfl

/-- The second region's mask input is the second argument flattened. -/
theorem entry1_mask (c : Dev nD) : Gen.V3 m ρ c main_call0_v3 = Cert.Attention.flatten (m ((c : Thread nD τ).loc main_arg1)) := by
  refine (entry1_mask_term m ρ c).trans ?_
  funext i
  exact shapeCast_flatten _ i

/-- The flattened first argument, written before the first region and untouched since. -/
theorem entry1_x_term (c : Dev nD) : (Gen.V3 m ρ c main_call0_v0 : FVec Ideal S512x4096 .f32)
    = shapeCast S512x4096 (m ((c : Thread nD τ).loc main_arg0) : FVec Ideal S512x1x64x64 .f32) Gen.shapeCasts_S512x1x64x64_S512x4096 := by
  show StableHlo.after Gen.hostOps1 _ (Proc.devRef .tc main_call0_v0) = _
  after_results
  rw [Gen.W2_of_ne m ρ c main_call0_v0 (by decide)]
  show StableHlo.after Gen.hostOps0 _ (Proc.devRef .tc main_call0_v0) = _
  after_results
  rfl

/-- The second region's gate input is the first argument flattened. -/
theorem entry1_x (c : Dev nD) : Gen.V3 m ρ c main_call0_v0 = Cert.Attention.flatten (m ((c : Thread nD τ).loc main_arg0)) := by
  refine (entry1_x_term m ρ c).trans ?_
  funext i
  exact shapeCast_flatten _ i

/-! ## The return

After the second region the host reads its two outputs back as tiles: the first result at (b, 0, h, f) and the second
at (b, h, g) are the outputs at row b, positions 64·h + f and 64·h + g. -/

/-- The first result as the host's reshape of the second region's first output. -/
theorem exit_res0_term (c : Dev nD) : (Gen.W5 m ρ c (Proc.devRef .tc main_v0_0) : FVec Ideal S512x1x64x64 .f32)
    = shapeCast S512x1x64x64 ((Gen.dat1 (Gen.V3 m ρ) c).arrAt 5 cfg1.N : FVec Ideal S512x4096 .f32) Gen.shapeCasts_S512x4096_S512x1x64x64 := by
  show StableHlo.after Gen.hostOps2 _ (Proc.devRef .tc main_v0_0) = _
  after_results
  exact congrArg (fun x : FVec Ideal S512x4096 .f32 => shapeCast S512x1x64x64 x Gen.shapeCasts_S512x4096_S512x1x64x64) (Gen.W4_arr m ρ c 5)

/-- The first result at (b, 0, h, f) is the second region's first output at row b, position 64·h + f. -/
theorem exit_res0 (c : Dev nD) : Gen.W5 m ρ c (Proc.devRef .tc main_v0_0)
    = fun i => (Gen.dat1 (Gen.V3 m ρ) c).arrAt 5 cfg1.N (ix2 (i 0) (Cert.Attention.flat (i 2) (i 3))) := by
  refine (exit_res0_term m ρ c).trans ?_
  funext i
  exact shapeCast_tile4 _ i

/-- The second result as the host's reshape of the second region's second output. -/
theorem exit_res1_term (c : Dev nD) : (Gen.W5 m ρ c (Proc.devRef .tc main_v0_1) : FVec Ideal S512x64x64 .f32)
    = shapeCast S512x64x64 ((Gen.dat1 (Gen.V3 m ρ) c).arrAt 6 cfg1.N : FVec Ideal S512x4096 .f32) Gen.shapeCasts_S512x4096_S512x64x64 := by
  show StableHlo.after Gen.hostOps2 _ (Proc.devRef .tc main_v0_1) = _
  after_results
  exact congrArg (fun x : FVec Ideal S512x4096 .f32 => shapeCast S512x64x64 x Gen.shapeCasts_S512x4096_S512x64x64) (Gen.W4_arr m ρ c 6)

/-- The second result at (b, h, g) is the second region's second output at row b, position 64·h + g. -/
theorem exit_res1 (c : Dev nD) : Gen.W5 m ρ c (Proc.devRef .tc main_v0_1)
    = fun i => (Gen.dat1 (Gen.V3 m ρ) c).arrAt 6 cfg1.N (ix2 (i 0) (Cert.Attention.flat (i 1) (i 2))) := by
  refine (exit_res1_term m ρ c).trans ?_
  funext i
  exact shapeCast_tile3 _ i

end Cert.KernelIdeal.HostSide

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.ProjValue.lean ====
/-
  What the fused projection leaves in its three output arrays.

  The first region runs over 16 points. At point t it multiplies the whole [512, 4096] input by rows
  256·t … 256·t + 255 of each of the three [4096, 4096] weights, contracting the lanes of both, and stores the three
  [512, 256] products as columns 256·t … 256·t + 255 of the three outputs:
      out(r, 256·t + q) = Σ_k x(r, k) · W(256·t + q, k).
  The 16 column blocks tile each output, so each output array ends as the linear layer applied to every row of the input,
  whatever the arrays held when the region was entered.
-/
import proofs.«139184_j47579647705483_2_alg».proof.Proof.Gen.KernelIdeal.Frame
import proofs.«139184_j47579647705483_2_alg».proof.Proof.Attention
import proofs.«139184_j47579647705483_2_alg».proof.Proof.LibLanes
import Idealize.ShloMosaic.Lib.Pipeline.Value
import Idealize.ShloMosaic.Lib.ValueIdx
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One block: the product at a row and a column -/

/-- The left operand of the product at (p, q) and lane s is read at row p … -/
theorem lhs_row (i : S512x256.Idx) (s : dot_S512x4096_S256x4096_S512x256_1_1_0_0_n_n.contr.Idx) :
    (dot_S512x4096_S256x4096_S512x256_1_1_0_0_n_n.lhsIdx i s 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- … and lane s; -/
theorem lhs_lane (i : S512x256.Idx) (s : dot_S512x4096_S256x4096_S512x256_1_1_0_0_n_n.contr.Idx) :
    (dot_S512x4096_S256x4096_S512x256_1_1_0_0_n_n.lhsIdx i s 1).val = (s ⟨0, by decide⟩).val :=
  dot_S512x4096_S256x4096_S512x256_1_1_0_0_n_n.lhsIdx_val_of_single rfl i s
/-- the right operand at row q … -/
theorem rhs_row (i : S512x256.Idx) (s : dot_S512x4096_S256x4096_S512x256_1_1_0_0_n_n.contr.Idx) :
    (dot_S512x4096_S256x4096_S512x256_1_1_0_0_n_n.rhsIdx i s 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- … and lane s. -/
theorem rhs_lane (i : S512x256.Idx) (s : dot_S512x4096_S256x4096_S512x256_1_1_0_0_n_n.contr.Idx) :
    (dot_S512x4096_S256x4096_S512x256_1_1_0_0_n_n.rhsIdx i s 1).val = (s ⟨0, by decide⟩).val :=
  dot_S512x4096_S256x4096_S512x256_1_1_0_0_n_n.rhsIdx_val_of_single rfl i s

/-- The product of the input block with a block of weight rows, contracted over the lanes, at row p and column q. -/
theorem product_at (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ k : Fin 4096, l (ix2 p k) * r (ix2 q k) :=
  Cert.LibLanes.matmul_lanes dot_S512x4096_S256x4096_S512x256_1_1_0_0_n_n rfl rfl lhs_row lhs_lane rhs_row rhs_lane l r p q

/-- What the body stores for the first weight, at row p and column q of the block. -/
theorem pay2_at (x0 : Vec Ideal S512x4096 .bf16) (x1 : Vec Ideal S256x4096 .f32) (p : Fin 512) (q : Fin 256) :
    k0_pay2 x0 x1 (ix2 p q) = ∑ k : Fin 4096, x0 (ix2 p k) * x1 (ix2 q k) := by
  unfold k0_pay2 k0_pay1
  rw [shapeCast_self]
  exact product_at x0 x1 p q

/-- An entry of a block's product is an entry of the linear layer on every row, once the two lanes read are the same
    lanes of the arrays: row (y 0) of the input block is row (i 0) of the input, row (y 1) of the weight block is row
    (i 1) of the weight. -/
theorem pay2_entry (XF : Cert.Attention.M) (W : Cert.Attention.W2) (x0 : Vec Ideal S512x4096 .bf16)
    (x1 : Vec Ideal S256x4096 .f32) (y : S512x256.Idx) (i : S512x4096.Idx)
    (h0 : ∀ k : Fin 4096, x0 (ix2 (y 0) k) = XF (ix2 (i 0) k))
    (h1 : ∀ k : Fin 4096, x1 (ix2 (y 1) k) = W (ix2 (i 1) k)) :
    k0_pay2 x0 x1 y = Cert.Attention.project XF W i := by
  obtain ⟨p, q, rfl⟩ : ∃ (p : Fin 512) (q : Fin 256), y = ix2 p q := ⟨y 0, y 1, eq_ix2 y⟩
  rw [pay2_at]
  unfold Cert.Attention.project Cert.Attention.linear Cert.Attention.rowOf Cert.Attention.mat
  exact Finset.sum_congr rfl fun k _ => congrArg₂ (· * ·) (h0 k) (h1 k)

/-- The body stores the same product for the second and the third weight. -/
theorem pay3_eq (x0 : Vec Ideal S512x4096 .bf16) (x1 : Vec Ideal S256x4096 .f32) : k0_pay3 x0 x1 = k0_pay2 x0 x1 := rfl
theorem pay4_eq (x0 : Vec Ideal S512x4096 .bf16) (x1 : Vec Ideal S256x4096 .f32) : k0_pay4 x0 x1 = k0_pay2 x0 x1 := rfl

theorem pay3_entry (XF : Cert.Attention.M) (W : Cert.Attention.W2) (x0 : Vec Ideal S512x4096 .bf16)
    (x1 : Vec Ideal S256x4096 .f32) (y : S512x256.Idx) (i : S512x4096.Idx)
    (h0 : ∀ k : Fin 4096, x0 (ix2 (y 0) k) = XF (ix2 (i 0) k))
    (h1 : ∀ k : Fin 4096, x1 (ix2 (y 1) k) = W (ix2 (i 1) k)) :
    k0_pay3 x0 x1 y = Cert.Attention.project XF W i :=
  (congrFun (pay3_eq x0 x1) y).trans (pay2_entry XF W x0 x1 y i h0 h1)

theorem pay4_entry (XF : Cert.Attention.M) (W : Cert.Attention.W2) (x0 : Vec Ideal S512x4096 .bf16)
    (x1 : Vec Ideal S256x4096 .f32) (y : S512x256.Idx) (i : S512x4096.Idx)
    (h0 : ∀ k : Fin 4096, x0 (ix2 (y 0) k) = XF (ix2 (i 0) k))
    (h1 : ∀ k : Fin 4096, x1 (ix2 (y 1) k) = W (ix2 (i 1) k)) :
    k0_pay4 x0 x1 y = Cert.Attention.project XF W i :=
  (congrFun (pay4_eq x0 x1) y).trans (pay2_entry XF W x0 x1 y i h0 h1)

/-! ## From the blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit, decided over the 16 points: the input is one block; point t takes block row t of each weight
    and writes block column t of each output. -/
theorem block_places : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ### The first output -/

/-- What point t writes back to the first output is block column t of the linear layer with the first weight. -/
theorem flushed4_eq (c : Dev nD) (t : Fin cfg0.N) :
    (dat0 V c).flushed 4 t
      = ((cfg0.win 4).blk t).view.read (Elt Ideal) (Cert.Attention.project (V c main_call0_v1) (V c main_arg2)) := by
  show (cfg0.win 4).cut (grid0.coords t) ((dat0 V c).after 4 t) = _
  rw [after0_4]
  unfold out0_4
  rw [View.canon_unit_zero zero_offsets]
  simp only [View.ld_unit_zero (S := S512x4096) zero_offsets, View.ld_unit_zero (S := S256x4096) zero_offsets]
  obtain ⟨a0, a1, w0, w1, -, -, -, -, o0, o1, -, -, -, -⟩ := block_places t
  funext y
  show k0_pay2 (iblk0 V c 0 t) (iblk0 V c 1 t) y
    = Cert.Attention.project (V c main_call0_v1) (V c main_arg2) (((cfg0.win 4).blk t).view.emb y)
  refine pay2_entry (V c main_call0_v1) (V c main_arg2) (iblk0 V c 0 t) (iblk0 V c 1 t) y _ (fun k => ?_) (fun k => ?_)
  · show V c main_call0_v1 (((cfg0.win 0).blk t).view.emb (ix2 (y 0) k)) = V c main_call0_v1 _
    refine congrArg (V c main_call0_v1) (funext fun a => Fin.ext ?_)
    match a with
    | ⟨0, _⟩ => show win0_0.index t (0 : Fin 2) * 512 + 1 * (y 0).val = win0_4.index t (0 : Fin 2) * 512 + 1 * (y 0).val; omega
    | ⟨1, _⟩ => show win0_0.index t (1 : Fin 2) * 4096 + 1 * k.val = k.val; omega
  · show V c main_arg2 (((cfg0.win 1).blk t).view.emb (ix2 (y 1) k)) = V c main_arg2 _
    refine congrArg (V c main_arg2) (funext fun a => Fin.ext ?_)
    match a with
    | ⟨0, _⟩ => show win0_1.index t (0 : Fin 2) * 256 + 1 * (y 1).val = win0_4.index t (1 : Fin 2) * 256 + 1 * (y 1).val; omega
    | ⟨1, _⟩ => show win0_1.index t (1 : Fin 2) * 4096 + 1 * k.val = k.val; omega

/-- An index of the first output lies in point t's block iff each coordinate lies in the block's range on its axis. -/
theorem mem_block4 (t : Fin cfg0.N) (i : S512x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_call0_v2_0).slice (win0_4.rect t)).set ↔ _
  rw [View.set_slice_whole, Rect.mem_set_unit]
  exact Iff.rfl

/-- Column j of the first output is written by point j / 256: the 16 blocks of 256 columns tile the 4096 columns. -/
theorem cover4 (i : S512x4096.Idx) :
    ∃ t : Fin cfg0.N, (cfg0.win 4).flush t = true ∧ i ∈ ((cfg0.win 4).blk t).view.set := by
  have hN : grid0.N = 16 := N_0
  have h0 : (i 0).val < 512 := (i 0).isLt
  have h1 : (i 1).val < 4096 := (i 1).isLt
  obtain ⟨t, ht⟩ : ∃ t : Fin cfg0.N, t.val = (i 1).val / 256 :=
    ⟨⟨(i 1).val / 256, by show (i 1).val / 256 < grid0.N; rw [hN]; omega⟩, rfl⟩
  refine ⟨t, flush0_4 t, ?_⟩
  rw [mem_block4]
  obtain ⟨a0, a1, w0, w1, -, -, -, -, o0, o1, -, -, -, -⟩ := block_places t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The first output array after the region: the linear layer with the first weight on every row of the input. -/
theorem proj4 (c : Dev nD) :
    (dat0 V c).arrAt 4 cfg0.N = Cert.Attention.project (V c main_call0_v1) (V c main_arg2) :=
  (dat0 V c).arrAt_eq_of_cover 4 (Cert.Attention.project (V c main_call0_v1) (V c main_arg2))
    (fun t _ => flushed4_eq V c t) cover4

/-! ### The second output -/

/-- What point t writes back to the second output is block column t of the linear layer with the second weight. -/
theorem flushed5_eq (c : Dev nD) (t : Fin cfg0.N) :
    (dat0 V c).flushed 5 t
      = ((cfg0.win 5).blk t).view.read (Elt Ideal) (Cert.Attention.project (V c main_call0_v1) (V c main_arg3)) := by
  show (cfg0.win 5).cut (grid0.coords t) ((dat0 V c).after 5 t) = _
  rw [after0_5]
  unfold out0_5
  rw [View.canon_unit_zero zero_offsets]
  simp only [View.ld_unit_zero (S := S512x4096) zero_offsets, View.ld_unit_zero (S := S256x4096) zero_offsets]
  obtain ⟨a0, a1, -, -, w0, w1, -, -, -, -, o0, o1, -, -⟩ := block_places t
  funext y
  show k0_pay3 (iblk0 V c 0 t) (iblk0 V c 2 t) y
    = Cert.Attention.project (V c main_call0_v1) (V c main_arg3) (((cfg0.win 5).blk t).view.emb y)
  refine pay3_entry (V c main_call0_v1) (V c main_arg3) (iblk0 V c 0 t) (iblk0 V c 2 t) y _ (fun k => ?_) (fun k => ?_)
  · show V c main_call0_v1 (((cfg0.win 0).blk t).view.emb (ix2 (y 0) k)) = V c main_call0_v1 _
    refine congrArg (V c main_call0_v1) (funext fun a => Fin.ext ?_)
    match a with
    | ⟨0, _⟩ => show win0_0.index t (0 : Fin 2) * 512 + 1 * (y 0).val = win0_5.index t (0 : Fin 2) * 512 + 1 * (y 0).val; omega
    | ⟨1, _⟩ => show win0_0.index t (1 : Fin 2) * 4096 + 1 * k.val = k.val; omega
  · show V c main_arg3 (((cfg0.win 2).blk t).view.emb (ix2 (y 1) k)) = V c main_arg3 _
    refine congrArg (V c main_arg3) (funext fun a => Fin.ext ?_)
    match a with
    | ⟨0, _⟩ => show win0_2.index t (0 : Fin 2) * 256 + 1 * (y 1).val = win0_5.index t (1 : Fin 2) * 256 + 1 * (y 1).val; omega
    | ⟨1, _⟩ => show win0_2.index t (1 : Fin 2) * 4096 + 1 * k.val = k.val; omega

/-- An index of the second output lies in point t's block iff each coordinate lies in the block's range on its axis. -/
theorem mem_block5 (t : Fin cfg0.N) (i : S512x4096.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_call0_v2_1).slice (win0_5.rect t)).set ↔ _
  rw [View.set_slice_whole, Rect.mem_set_unit]
  exact Iff.rfl

/-- Column j of the second output is written by point j / 256: the 16 blocks of 256 columns tile the 4096 columns. -/
theorem cover5 (i : S512x4096.Idx) :
    ∃ t : Fin cfg0.N, (cfg0.win 5).flush t = true ∧ i ∈ ((cfg0.win 5).blk t).view.set := by
  have hN : grid0.N = 16 := N_0
  have h0 : (i 0).val < 512 := (i 0).isLt
  have h1 : (i 1).val < 4096 := (i 1).isLt
  obtain ⟨t, ht⟩ : ∃ t : Fin cfg0.N, t.val = (i 1).val / 256 :=
    ⟨⟨(i 1).val / 256, by show (i 1).val / 256 < grid0.N; rw [hN]; omega⟩, rfl⟩
  refine ⟨t, flush0_5 t, ?_⟩
  rw [mem_block5]
  obtain ⟨a0, a1, -, -, w0, w1, -, -, -, -, o0, o1, -, -⟩ := block_places t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- The second output array after the region: the linear layer with the second weight on every row of the input. -/
theorem proj5 (c : Dev nD) :
    (dat0 V c).arrAt 5 cfg0.N = Cert.Attention.project (V c main_call0_v1) (V c main_arg3) :=
  (dat0 V c).arrAt_eq_of_cover 5 (Cert.Attention.project (V c main_call0_v1) (V c main_arg3))
    (fun t _ => flushed5_eq V c t) cover5

/-! ### The third output -/

/-- What point t writes back to the third output is block column t of the linear layer with the third weight. -/
theorem flushed6_eq (c : Dev nD) (t : Fin cfg0.N) :
    (dat0 V c).flushed 6 t
      = ((cfg0.win 6).blk t).view.read (Elt Ideal) (Cert.Attention.project (V c main_call0_v1) (V c main_arg4)) := by
  show (cfg0.win 6).cut (grid0.coords t) ((dat0 V c).after 6 t) = _
  rw [after0_6]
  unfold out0_6
  rw [View.canon_unit_zero zero_offsets]
  simp only [View.ld_unit_zero (S := S512x4096) zero_offsets, View.ld_unit_zero (S := S256x4096) zero_offsets]
  obtain ⟨a0, a1, -, -, -, -, w0, w1, -, -, -, -, o0, o1⟩ := block_places t
  funext y
  show k0_pay4 (iblk0 V c 0 t) (iblk0 V c 3 t) y
    = Cert.Attention.project (V c main_call0_v1) (V c main_arg4) (((cfg0.win 6).blk t).view.emb y)
  refine pay4_entry (V c main_call0_v1) (V c main_arg4) (iblk0 V c 0 t) (iblk0 V c 3 t) y _ (fun k => ?_) (fun k => ?_)
  · show V c main_call0_v1 (((cfg0.win 0).blk t).view.emb (ix2 (y 0) k)) = V c main_call0_v1 _
    refine congrArg (V c main_call0_v1) (funext fun a => Fin.ext ?_)
    match a with
    | ⟨0, _⟩ => show win0_0.index t (0 : Fin 2) * 512 + 1 * (y 0).val = win0_6.index t (0 : Fin 2) * 512 + 1 * (y 0).val; omega
    | ⟨1, _⟩ => show win0_0.index t (1 : Fin 2) * 4096 + 1 * k.val = k.val; omega
  · show V c main_arg4 (((cfg0.win 3).blk t).view.emb (ix2 (y 1) k)) = V c main_arg4 _
    refine congrArg (V c main_arg4) (funext fun a => Fin.ext ?_)
    match a with
    | ⟨0, _⟩ => show win0_3.index t (0 : Fin 2) * 256 + 1 * (y 1).val = win0_6.index t (1 : Fin 2) * 256 + 1 * (y 1).val; omega
    | ⟨1, _⟩ => show win0_3.index t (1 : Fin 2) * 4096 + 1 * k.val = k.val; omega

/-- An index of the third output lies in point t's block iff each coordinate lies in the block's range on its axis. -/
theorem mem_block6 (t : Fin cfg0.N) (i : S512x4096.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_call0_v2_2).slice (win0_6.rect t)).set ↔ _
  rw [View.set_slice_whole, Rect.mem_set_unit]
  exact Iff.rfl

/-- Column j of the third output is written by point j / 256: the 16 blocks of 256 columns tile the 4096 columns. -/
theorem cover6 (i : S512x4096.Idx) :
    ∃ t : Fin cfg0.N, (cfg0.win 6).flush t = true ∧ i ∈ ((cfg0.win 6).blk t).view.set := by
  have hN : grid0.N = 16 := N_0
  have h0 : (i 0).val < 512 := (i 0).isLt
  have h1 : (i 1).val < 4096 := (i 1).isLt
  obtain ⟨t, ht⟩ : ∃ t : Fin cfg0.N, t.val = (i 1).val / 256 :=
    ⟨⟨(i 1).val / 256, by show (i 1).val / 256 < grid0.N; rw [hN]; omega⟩, rfl⟩
  refine ⟨t, flush0_6 t, ?_⟩
  rw [mem_block6]
  obtain ⟨a0, a1, -, -, -, -, w0, w1, -, -, -, -, o0, o1⟩ := block_places t
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The third output array after the region: the linear layer with the third weight on every row of the input. -/
theorem proj6 (c : Dev nD) :
    (dat0 V c).arrAt 6 cfg0.N = Cert.Attention.project (V c main_call0_v1) (V c main_arg4) :=
  (dat0 V c).arrAt_eq_of_cover 6 (Cert.Attention.project (V c main_call0_v1) (V c main_arg4))
    (fun t _ => flushed6_eq V c t) cover6

end Cert.KernelIdeal.ProjValue

end
-- ==== Proof.AttnTiles.lean ====
/-
  The attention kernel's block operations read at an index, at the ideal values (every float an extended real).

  A block holds 128 rows of 4096 lanes; a row is a 64 × 64 tile, entry (h, f) at lane 64·h + f. Stated here, each
  over arbitrary vectors and at explicit coordinates (r, h, g) or (r, j):
  * the cast of a [128, 4096] block to [128, 64, 64] reads lane 64·h + f, and the cast back reads tile entry
    (j / 64, j % 64);
  * the two batched products into a zero accumulator: over the last axes of both operands,
    (A·Bᵀ)(r, h, g) = Σ_f A(r, h, f)·B(r, g, f), and last axis against middle axis,
    (A·B)(r, h, f) = Σ_g A(r, h, g)·B(r, g, f);
  * the maximum and the sum over the last axis at (r, h): the fold of max from the accumulator's value, and the sum,
    over g of the entry (r, h, g);
  * a [128, 64] vector laid along the last axis of [128, 64, 64] reads (r, h) at every (r, h, g);
  * the transpose of the two tile axes.
  None uses a law of extended-real arithmetic beyond re-indexing a finite sum or fold.
-/
import proofs.«139184_j47579647705483_2_alg».proof.KernelIdeal
import proofs.«139184_j47579647705483_2_alg».proof.Proof.Attention
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnTiles

open Cert.KernelIdeal Idealize.ShloMosaic Idealize.ShloMosaic.ValueIdx Cert.Attention
open scoped BigOperators

variable [Cert.KernelIdeal.Facts]
open Cert.KernelIdeal.Facts₀ Cert.KernelIdeal.Facts

/-- Two rank-3 indices with the same coordinates are one index. -/
theorem idx3_ext {n0 n1 n2 : ℕ} (f g : (⟨3, ![n0, n1, n2]⟩ : Shape).Idx) (h0 : (f 0).val = (g 0).val)
    (h1 : (f 1).val = (g 1).val) (h2 : (f 2).val = (g 2).val) : f = g :=
  funext fun d => Fin.ext (by
    match d with
    | ⟨0, _⟩ => exact h0
    | ⟨1, _⟩ => exact h1
    | ⟨2, _⟩ => exact h2)

variable {α : Type}

/-- Membership in a one-element list. -/
theorem mem_one {n : ℕ} {a : Fin n} {l : List (Fin n)} (h : l = [a]) : a ∈ l := h ▸ List.mem_singleton.mpr rfl
theorem not_mem_one {n : ℕ} {a b : Fin n} {l : List (Fin n)} (h : l = [b]) (hab : a ≠ b) : ¬ a ∈ l :=
  h ▸ fun hm => hab (List.mem_singleton.mp hm)

/-- A block's row read as a tile: entry (h, f) is lane 64·h + f. -/
theorem tile_apply (x : S128x4096.Idx → α) (r : Fin 128) (h f : Fin 64) :
    shapeCast S128x64x64 (shapeCast S128x4096 x shapeCasts_S128x4096_S128x4096) shapeCasts_S128x4096_S128x64x64 (ix3 r h f)
      = x (ix2 r (flat h f)) := by
  rw [shapeCast_self]
  exact shapeCast_apply x shapeCasts_S128x4096_S128x64x64 (ix3 r h f) (ix2 r (flat h f)) (by
    rewrite [Shape.rowMajor_val_two, Shape.rowMajor_val_three]
    show r.val * 4096 + (h.val * 64 + f.val) = (r.val * 64 + h.val) * 64 + f.val
    omega)

/-- A tile written back as a row: lane j is entry (j / 64, j % 64). -/
theorem untile_apply (y : S128x64x64.Idx → α) (r : Fin 128) (j : Fin 4096) :
    shapeCast S128x4096 y shapeCasts_S128x64x64_S128x4096 (ix2 r j) = y (ix3 r (hi j) (lo j)) :=
  shapeCast_apply y shapeCasts_S128x64x64_S128x4096 (ix2 r j) (ix3 r (hi j) (lo j)) (by
    rewrite [Shape.rowMajor_val_two, Shape.rowMajor_val_three]
    show (r.val * 64 + j.val / 64) * 64 + j.val % 64 = r.val * 4096 + j.val
    omega)

/-- The transpose of the two tile axes. -/
theorem swap_apply (y : S128x64x64.Idx → α) (r : Fin 128) (f h : Fin 64) :
    transpose S128x64x64 [0, 2, 1] y transposes_S128x64x64_p0_2_1_S128x64x64 (ix3 r f h) = y (ix3 r h f) :=
  transpose_apply [0, 2, 1] y transposes_S128x64x64_p0_2_1_S128x64x64 (ix3 r f h) (ix3 r h f) (fun b => by
    match b with
    | ⟨0, _⟩ => rfl
    | ⟨1, _⟩ => rfl
    | ⟨2, _⟩ => rfl)

/-- A [128, 64] vector laid along the last axis: every (r, h, g) reads (r, h). -/
theorem along_apply (u : S128x64.Idx → α) (r : Fin 128) (h g : Fin 64) :
    broadcastTo S128x64x64 (shapeCast S128x64x1 u shapeCasts_S128x64_S128x64x1) broadcasts_S128x64x1_S128x64x64 (ix3 r h g)
      = u (ix2 r h) := by
  rw [broadcastTo_apply _ broadcasts_S128x64x1_S128x64x64 (ix3 r h g) (ix3 r h (0 : Fin 1)) (fun a => by
    match a with
    | ⟨0, _⟩ => rfl
    | ⟨1, _⟩ => rfl
    | ⟨2, _⟩ => rfl)]
  exact shapeCast_apply u shapeCasts_S128x64_S128x64x1 (ix3 r h (0 : Fin 1)) (ix2 r h) (by
    rewrite [Shape.rowMajor_val_two, Shape.rowMajor_val_three]
    show r.val * 64 + h.val = (r.val * 64 + h.val) * 1 + 0
    omega)

/-! ## The two batched products -/

/-- Scores: the product over the last axes of both operands, into zero. -/
theorem lanes_dot_apply {φ₁ φ₂ : FTy} (A : FVec Ideal S128x64x64 φ₁) (B : FVec Ideal S128x64x64 φ₂) (r : Fin 128) (h g : Fin 64) :
    matmul dot_S128x64x64_S128x64x64_S128x64x64_2_2_1_1_0_0 none A B (constant (F := Ideal) S128x64x64 .f32 0x00000000#32) (ix3 r h g)
      = ∑ f : Fin 64, A (ix3 r h f) * B (ix3 r g f) := by
  refine (Ideal.matmul_constant_zero_apply dot_S128x64x64_S128x64x64_S128x64x64_2_2_1_1_0_0 none A B (ix3 r h g)).trans ?_
  rw [← Equiv.sum_comp (contrEquiv1 dot_S128x64x64_S128x64x64_S128x64x64_2_2_1_1_0_0 64 rfl rfl).symm]
  refine Finset.sum_congr rfl fun f _ => ?_
  have hk := contrEquiv1_symm_val dot_S128x64x64_S128x64x64_S128x64x64_2_2_1_1_0_0 64 rfl rfl f
  have el : dot_S128x64x64_S128x64x64_S128x64x64_2_2_1_1_0_0.lhsIdx (ix3 r h g)
      ((contrEquiv1 dot_S128x64x64_S128x64x64_S128x64x64_2_2_1_1_0_0 64 rfl rfl).symm f) = ix3 r h f :=
    idx3_ext _ _
      (by unfold DotDims.lhsIdx
          rw [dif_pos (mem_one (a := (0 : Fin S128x64x64.rank)) (rfl : dot_S128x64x64_S128x64x64_S128x64x64_2_2_1_1_0_0.lhsBatch = [0]))]
          rfl)
      (by unfold DotDims.lhsIdx
          rw [dif_neg (not_mem_one (a := (1 : Fin S128x64x64.rank)) (rfl : dot_S128x64x64_S128x64x64_S128x64x64_2_2_1_1_0_0.lhsBatch = [0]) (by decide)),
            dif_pos (mem_one (a := (1 : Fin S128x64x64.rank)) (rfl : dot_S128x64x64_S128x64x64_S128x64x64_2_2_1_1_0_0.lhsNonContracting = [1]))]
          rfl)
      ((dot_S128x64x64_S128x64x64_S128x64x64_2_2_1_1_0_0.lhsIdx_val_of_single rfl _ _).trans hk)
  have er : dot_S128x64x64_S128x64x64_S128x64x64_2_2_1_1_0_0.rhsIdx (ix3 r h g)
      ((contrEquiv1 dot_S128x64x64_S128x64x64_S128x64x64_2_2_1_1_0_0 64 rfl rfl).symm f) = ix3 r g f :=
    idx3_ext _ _
      (by unfold DotDims.rhsIdx
          rw [dif_pos (mem_one (a := (0 : Fin S128x64x64.rank)) (rfl : dot_S128x64x64_S128x64x64_S128x64x64_2_2_1_1_0_0.rhsBatch = [0]))]
          rfl)
      (by unfold DotDims.rhsIdx
          rw [dif_neg (not_mem_one (a := (1 : Fin S128x64x64.rank)) (rfl : dot_S128x64x64_S128x64x64_S128x64x64_2_2_1_1_0_0.rhsBatch = [0]) (by decide)),
            dif_pos (mem_one (a := (1 : Fin S128x64x64.rank)) (rfl : dot_S128x64x64_S128x64x64_S128x64x64_2_2_1_1_0_0.rhsNonContracting = [1]))]
          rfl)
      ((dot_S128x64x64_S128x64x64_S128x64x64_2_2_1_1_0_0.rhsIdx_val_of_single rfl _ _).trans hk)
  rw [el, er]

/-- Mixing: the last axis of the left operand against the middle axis of the right one, into zero. -/
theorem mix_dot_apply {φ₁ φ₂ : FTy} (A : FVec Ideal S128x64x64 φ₁) (B : FVec Ideal S128x64x64 φ₂) (r : Fin 128) (h f : Fin 64) :
    matmul dot_S128x64x64_S128x64x64_S128x64x64_2_1_1_2_0_0 none A B (constant (F := Ideal) S128x64x64 .f32 0x00000000#32) (ix3 r h f)
      = ∑ g : Fin 64, A (ix3 r h g) * B (ix3 r g f) := by
  refine (Ideal.matmul_constant_zero_apply dot_S128x64x64_S128x64x64_S128x64x64_2_1_1_2_0_0 none A B (ix3 r h f)).trans ?_
  rw [← Equiv.sum_comp (contrEquiv1 dot_S128x64x64_S128x64x64_S128x64x64_2_1_1_2_0_0 64 rfl rfl).symm]
  refine Finset.sum_congr rfl fun g _ => ?_
  have hk := contrEquiv1_symm_val dot_S128x64x64_S128x64x64_S128x64x64_2_1_1_2_0_0 64 rfl rfl g
  have el : dot_S128x64x64_S128x64x64_S128x64x64_2_1_1_2_0_0.lhsIdx (ix3 r h f)
      ((contrEquiv1 dot_S128x64x64_S128x64x64_S128x64x64_2_1_1_2_0_0 64 rfl rfl).symm g) = ix3 r h g :=
    idx3_ext _ _
      (by unfold DotDims.lhsIdx
          rw [dif_pos (mem_one (a := (0 : Fin S128x64x64.rank)) (rfl : dot_S128x64x64_S128x64x64_S128x64x64_2_1_1_2_0_0.lhsBatch = [0]))]
          rfl)
      (by unfold DotDims.lhsIdx
          rw [dif_neg (not_mem_one (a := (1 : Fin S128x64x64.rank)) (rfl : dot_S128x64x64_S128x64x64_S128x64x64_2_1_1_2_0_0.lhsBatch = [0]) (by decide)),
            dif_pos (mem_one (a := (1 : Fin S128x64x64.rank)) (rfl : dot_S128x64x64_S128x64x64_S128x64x64_2_1_1_2_0_0.lhsNonContracting = [1]))]
          rfl)
      ((dot_S128x64x64_S128x64x64_S128x64x64_2_1_1_2_0_0.lhsIdx_val_of_single rfl _ _).trans hk)
  have er : dot_S128x64x64_S128x64x64_S128x64x64_2_1_1_2_0_0.rhsIdx (ix3 r h f)
      ((contrEquiv1 dot_S128x64x64_S128x64x64_S128x64x64_2_1_1_2_0_0 64 rfl rfl).symm g) = ix3 r g f :=
    idx3_ext _ _
      (by unfold DotDims.rhsIdx
          rw [dif_pos (mem_one (a := (0 : Fin S128x64x64.rank)) (rfl : dot_S128x64x64_S128x64x64_S128x64x64_2_1_1_2_0_0.rhsBatch = [0]))]
          rfl)
      ((dot_S128x64x64_S128x64x64_S128x64x64_2_1_1_2_0_0.rhsIdx_val_of_single rfl _ _).trans hk)
      (by unfold DotDims.rhsIdx
          rw [dif_neg (not_mem_one (a := (2 : Fin S128x64x64.rank)) (rfl : dot_S128x64x64_S128x64x64_S128x64x64_2_1_1_2_0_0.rhsBatch = [0]) (by decide)),
            dif_pos (mem_one (a := (2 : Fin S128x64x64.rank)) (rfl : dot_S128x64x64_S128x64x64_S128x64x64_2_1_1_2_0_0.rhsNonContracting = [2]))]
          rfl)
  rw [el, er]

/-! ## The maximum and the sum over the last axis -/

/-- The maximum over the last axis at (r, h): the fold of max, from the accumulator's value, over g. -/
theorem lane_max_apply (v : FVec Ideal S128x64x64 .f32) (r : Fin 128) (h : Fin 64) :
    multiReduction .maximumf [2] S128x64 v 0xFF800000#32 reduces_S128x64x64_S128x64 (.inl rfl) rfl (ix2 r h)
      = (Finset.univ : Finset (Fin 64)).fold max (Ideal.ofBits .f32 0xFF800000#32) (fun g => v (ix3 r h g)) := by
  refine (Ideal.multiReduction_maximumf_single v 0xFF800000#32 reduces_S128x64x64_S128x64 (.inl rfl) rfl (ix2 r h)).trans ?_
  refine Finset.fold_congr fun g _ => ?_
  exact congrArg v (idx3_ext _ _ rfl rfl rfl)

/-- The sum over the last axis at (r, h). -/
theorem lane_sum_apply (v : FVec Ideal S128x64x64 .f32) (r : Fin 128) (h : Fin 64) :
    multiReduction .add [2] S128x64 v 0x00000000#32 reduces_S128x64x64_S128x64 (.inl rfl) rfl (ix2 r h)
      = ∑ g : Fin 64, v (ix3 r h g) := by
  refine (Ideal.multiReduction_add_single v 0x00000000#32 reduces_S128x64x64_S128x64 (.inl rfl) rfl (ix2 r h)).trans ?_
  refine Finset.sum_congr rfl fun g _ => ?_
  exact congrArg v (idx3_ext _ _ rfl rfl rfl)

end Cert.KernelIdeal.AttnTiles

end
-- ==== Proof.AttnPayload.lean ====
/-
  What the attention kernel's body computes on one block of 128 rows, entry by entry, at the ideal values.

  From the q, k, v blocks (bf16), the mask block and the x block (f32), each [128, 4096], row r read as 64 × 64 tiles:
    s(r, h, g) = (Σ_f q(r, h, f)·k(r, g, f))·c·mask(r, h, g),
    w(r, h, ·) = softmax of s(r, h, ·)   (the maximum taken from the accumulator's value),
  the second store holds w(r, j / 64, j % 64) at lane j, and the first store holds, at lane j = 64·f + h,
    x(r, j)·Σ_g w(r, h, g)·v(r, g, f).
  The change of float format of w before the second product is the identity on extended reals.
-/
import proofs.«139184_j47579647705483_2_alg».proof.Proof.Gen.KernelIdeal.Skeleton
import proofs.«139184_j47579647705483_2_alg».proof.Proof.AttnTiles
import Idealize.ShloMosaic.Lib.Pipeline.Value

noncomputable section

namespace Cert.KernelIdeal.AttnPayload

open Cert.KernelIdeal Idealize.ShloMosaic Idealize.ShloMosaic.ValueIdx Cert.Attention Cert.KernelIdeal.AttnTiles
open scoped BigOperators

variable [Cert.KernelIdeal.Facts]
open Cert.KernelIdeal.Facts₀ Cert.KernelIdeal.Facts

/-! ## The pieces of the body -/

/-- The block of scores: the batched product of the q and k tiles, times the scale, times the mask tile. -/
def scoreBlock (q k : Vec Ideal S128x4096 .bf16) (im : Vec Ideal S128x4096 .f32) : FVec Ideal S128x64x64 .f32 :=
  mulf
    (mulf
      (matmul dot_S128x64x64_S128x64x64_S128x64x64_2_2_1_1_0_0 none
        (shapeCast S128x64x64 (shapeCast S128x4096 q shapeCasts_S128x4096_S128x4096) shapeCasts_S128x4096_S128x64x64 : FVec Ideal S128x64x64 .bf16)
        (shapeCast S128x64x64 (shapeCast S128x4096 k shapeCasts_S128x4096_S128x4096) shapeCasts_S128x4096_S128x64x64 : FVec Ideal S128x64x64 .bf16)
        (constant (F := Ideal) S128x64x64 .f32 0x00000000#32))
      (broadcast S128x64x64 (Scalar.ofBits (F := Ideal) .f32 0x3E000000#32)))
    (shapeCast S128x64x64 (shapeCast S128x4096 im shapeCasts_S128x4096_S128x4096) shapeCasts_S128x4096_S128x64x64 : FVec Ideal S128x64x64 .f32)

/-- The softmax over the last axis of a block. -/
def softBlock (S : FVec Ideal S128x64x64 .f32) : FVec Ideal S128x64x64 .f32 :=
  divf
    (exp (subf S (broadcastTo S128x64x64 (shapeCast S128x64x1
      (multiReduction .maximumf [2] S128x64 S 0xFF800000#32 reduces_S128x64x64_S128x64 (.inl rfl) rfl)
      shapeCasts_S128x64_S128x64x1) broadcasts_S128x64x1_S128x64x64)))
    (broadcastTo S128x64x64 (shapeCast S128x64x1
      (multiReduction .add [2] S128x64
        (exp (subf S (broadcastTo S128x64x64 (shapeCast S128x64x1
          (multiReduction .maximumf [2] S128x64 S 0xFF800000#32 reduces_S128x64x64_S128x64 (.inl rfl) rfl)
          shapeCasts_S128x64_S128x64x1) broadcasts_S128x64x1_S128x64x64)))
        0x00000000#32 reduces_S128x64x64_S128x64 (.inl rfl) rfl)
      shapeCasts_S128x64_S128x64x1) broadcasts_S128x64x1_S128x64x64)

/-- The body's weights are the softmax of its score block. -/
theorem pay1_eq (q k : Vec Ideal S128x4096 .bf16) (im : Vec Ideal S128x4096 .f32) :
    Gen.k1_pay1 q k im = softBlock (scoreBlock q k im) := rfl

/-- A score: entry (h, g) of row r is (Σ_f q(r, h, f)·k(r, g, f))·c·mask(r, h, g). -/
theorem scoreBlock_at (q k : Vec Ideal S128x4096 .bf16) (im : Vec Ideal S128x4096 .f32) (r : Fin 128) (h g : Fin 64) :
    scoreBlock q k im (ix3 r h g)
      = score (Ideal.ofBits .f32 0x3E000000#32) (fun j => q (ix2 r j)) (fun j => k (ix2 r j)) (fun j => im (ix2 r j)) h g := by
  unfold scoreBlock
  dsimp only [mulf]
  rw [lanes_dot_apply _ _ r h g, tile_apply im r h g]
  simp only [tile_apply]
  rfl

/-- The softmax of a block at (r, h, g) is the softmax of the row S(r, h, ·) at g. -/
theorem softBlock_at (S : FVec Ideal S128x64x64 .f32) (r : Fin 128) (h g : Fin 64) :
    softBlock S (ix3 r h g) = soft (Ideal.ofBits .f32 0xFF800000#32) (fun g' => S (ix3 r h g')) g := by
  unfold softBlock
  dsimp only [divf, exp, subf]
  simp only [along_apply]
  rw [lane_max_apply S r h, lane_sum_apply _ r h]
  dsimp only [exp, subf]
  simp only [along_apply, lane_max_apply S r h]
  rfl

/-! ## The payloads at an index -/

/-- The weights the body computes, at (r, h, g). -/
theorem weights_at (q k : Vec Ideal S128x4096 .bf16) (im : Vec Ideal S128x4096 .f32) (r : Fin 128) (h g : Fin 64) :
    Gen.k1_pay1 q k im (ix3 r h g)
      = soft (Ideal.ofBits .f32 0xFF800000#32)
          (score (Ideal.ofBits .f32 0x3E000000#32) (fun j => q (ix2 r j)) (fun j => k (ix2 r j)) (fun j => im (ix2 r j)) h) g := by
  rw [pay1_eq, softBlock_at]
  exact congrArg (fun s => soft _ s g) (funext fun g' => scoreBlock_at q k im r h g')

/-- The second store: the weights written back as a row, lane j is entry (j / 64, j % 64). -/
theorem weights_row_at (q k : Vec Ideal S128x4096 .bf16) (im : Vec Ideal S128x4096 .f32) (r : Fin 128) (j : Fin 4096) :
    Gen.k1_pay3 q k im (ix2 r j)
      = soft (Ideal.ofBits .f32 0xFF800000#32)
          (score (Ideal.ofBits .f32 0x3E000000#32) (fun j => q (ix2 r j)) (fun j => k (ix2 r j)) (fun j => im (ix2 r j)) (hi j)) (lo j) := by
  unfold Gen.k1_pay3
  rw [untile_apply _ r j]
  exact weights_at q k im r (hi j) (lo j)

/-- The first store: lane j = 64·f + h holds x there times Σ_g w(h, g)·v(g, f). -/
theorem out_at (q k v : Vec Ideal S128x4096 .bf16) (im x : Vec Ideal S128x4096 .f32) (r : Fin 128) (j : Fin 4096) :
    Gen.k1_pay2 q k v im x (ix2 r j)
      = x (ix2 r j) * mixed (fun h g => soft (Ideal.ofBits .f32 0xFF800000#32)
          (score (Ideal.ofBits .f32 0x3E000000#32) (fun j => q (ix2 r j)) (fun j => k (ix2 r j)) (fun j => im (ix2 r j)) h) g)
          (fun j => v (ix2 r j)) (lo j) (hi j) := by
  unfold Gen.k1_pay2
  dsimp only [mulf]
  rw [shapeCast_self, untile_apply _ r j, swap_apply _ r (hi j) (lo j), mix_dot_apply _ _ r (lo j) (hi j)]
  simp only [tile_apply, truncf_apply, weights_at]
  rfl

end Cert.KernelIdeal.AttnPayload

end
-- ==== Proof.AttnValue.lean ====
/-
  What the attention region leaves in its two output arrays.

  The second region runs over 4 points. At point t it takes rows 128·t … 128·t + 127 of the five [512, 4096] inputs
  (q, k, v, the mask, x), computes row by row the attention weights and the gated output, and stores them as rows
  128·t … 128·t + 127 of the two [512, 4096] outputs. Every entry of a row depends on that row of the inputs only, and
  the 4 row blocks tile each output, so the two arrays end as the attention weights and the gated output of every row,
  whatever the arrays held when the region was entered.
-/
import proofs.«139184_j47579647705483_2_alg».proof.Proof.Gen.KernelIdeal.Frame
import proofs.«139184_j47579647705483_2_alg».proof.Proof.Attention
import proofs.«139184_j47579647705483_2_alg».proof.Proof.AttnPayload
import Idealize.ShloMosaic.Lib.Pipeline.Value
import Idealize.ShloMosaic.Lib.ValueIdx
import Idealize.ShloMosaic.PureOps.Ideal.Laws

set_option maxRecDepth 16384

noncomputable section

namespace Cert.KernelIdeal.AttnValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attention
open scoped BigOperators

/-! ## One block: an entry of a row of the block is the entry of that row of the arrays -/

/-- The weights stored for row r of a block are the attention weights of row b of the arrays, once row r of each block
    read is row b of its array. -/
theorem weights_entry (Q K Mask : M) (x0 x1 : Vec Ideal S128x4096 .bf16) (x3 : Vec Ideal S128x4096 .f32)
    (r : Fin 128) (b : Fin 512) (j : Fin 4096)
    (h0 : ∀ j' : Fin 4096, x0 (ix2 r j') = Q (ix2 b j'))
    (h1 : ∀ j' : Fin 4096, x1 (ix2 r j') = K (ix2 b j'))
    (h3 : ∀ j' : Fin 4096, x3 (ix2 r j') = Mask (ix2 b j')) :
    k1_pay3 x0 x1 x3 (ix2 r j) = attnWeights (Ideal.ofBits .f32 0x3E000000#32) (Ideal.ofBits .f32 0xFF800000#32) Q K Mask (ix2 b j) := by
  rw [Cert.KernelIdeal.AttnPayload.weights_row_at]
  have e0 : (fun j' => x0 (ix2 r j')) = rowOf Q b := funext h0
  have e1 : (fun j' => x1 (ix2 r j')) = rowOf K b := funext h1
  have e3 : (fun j' => x3 (ix2 r j')) = rowOf Mask b := funext h3
  rw [e0, e1, e3]
  rfl

/-- The gated output stored for row r of a block is the gated output of row b of the arrays. -/
theorem out_entry (Q K Vv Mask XF : M) (x0 x1 x2 : Vec Ideal S128x4096 .bf16) (x3 x4 : Vec Ideal S128x4096 .f32)
    (r : Fin 128) (b : Fin 512) (j : Fin 4096)
    (h0 : ∀ j' : Fin 4096, x0 (ix2 r j') = Q (ix2 b j'))
    (h1 : ∀ j' : Fin 4096, x1 (ix2 r j') = K (ix2 b j'))
    (h2 : ∀ j' : Fin 4096, x2 (ix2 r j') = Vv (ix2 b j'))
    (h3 : ∀ j' : Fin 4096, x3 (ix2 r j') = Mask (ix2 b j'))
    (h4 : ∀ j' : Fin 4096, x4 (ix2 r j') = XF (ix2 b j')) :
    k1_pay2 x0 x1 x2 x3 x4 (ix2 r j) = attnOut (Ideal.ofBits .f32 0x3E000000#32) (Ideal.ofBits .f32 0xFF800000#32) Q K Vv Mask XF (ix2 b j) := by
  rw [Cert.KernelIdeal.AttnPayload.out_at]
  have e0 : (fun j' => x0 (ix2 r j')) = rowOf Q b := funext h0
  have e1 : (fun j' => x1 (ix2 r j')) = rowOf K b := funext h1
  have e2 : (fun j' => x2 (ix2 r j')) = rowOf Vv b := funext h2
  have e3 : (fun j' => x3 (ix2 r j')) = rowOf Mask b := funext h3
  rw [e0, e1, e2, e3, h4 j]
  rfl

/-! ## From the blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit, decided over the 4 points: point t takes block row t of every array. -/
theorem place0 : ∀ t : Fin cfg1.N, win1_0.index t (0 : Fin 2) = t.val ∧ win1_0.index t (1 : Fin 2) = 0 :=
  (by decide +kernel : ∀ t : Fin grid1.N, _)
theorem place1 : ∀ t : Fin cfg1.N, win1_1.index t (0 : Fin 2) = t.val ∧ win1_1.index t (1 : Fin 2) = 0 :=
  (by decide +kernel : ∀ t : Fin grid1.N, _)
theorem place2 : ∀ t : Fin cfg1.N, win1_2.index t (0 : Fin 2) = t.val ∧ win1_2.index t (1 : Fin 2) = 0 :=
  (by decide +kernel : ∀ t : Fin grid1.N, _)
theorem place3 : ∀ t : Fin cfg1.N, win1_3.index t (0 : Fin 2) = t.val ∧ win1_3.index t (1 : Fin 2) = 0 :=
  (by decide +kernel : ∀ t : Fin grid1.N, _)
theorem place4 : ∀ t : Fin cfg1.N, win1_4.index t (0 : Fin 2) = t.val ∧ win1_4.index t (1 : Fin 2) = 0 :=
  (by decide +kernel : ∀ t : Fin grid1.N, _)
theorem place5 : ∀ t : Fin cfg1.N, win1_5.index t (0 : Fin 2) = t.val ∧ win1_5.index t (1 : Fin 2) = 0 :=
  (by decide +kernel : ∀ t : Fin grid1.N, _)
theorem place6 : ∀ t : Fin cfg1.N, win1_6.index t (0 : Fin 2) = t.val ∧ win1_6.index t (1 : Fin 2) = 0 :=
  (by decide +kernel : ∀ t : Fin grid1.N, _)

/-- Row r of point t's block is row 128·t + r of the array. -/
def rowAt (t : Fin cfg1.N) (r : Fin 128) : Fin 512 :=
  ⟨t.val * 128 + r.val, by have hN : grid1.N = 4 := N_1; have ht : t.val < grid1.N := t.isLt; have := r.isLt; omega⟩

/-! ### The first output: the gated output -/

/-- What point t writes back to the first output is block row t of the gated output of the arrays as the region finds them. -/
theorem flushed5_eq (c : Dev nD) (t : Fin cfg1.N) :
    (dat1 V c).flushed 5 t
      = ((cfg1.win 5).blk t).view.read (Elt Ideal)
          (attnOut (Ideal.ofBits .f32 0x3E000000#32) (Ideal.ofBits .f32 0xFF800000#32) (V c main_call0_v2_0) (V c main_call0_v2_1) (V c main_call0_v2_2) (V c main_call0_v3) (V c main_call0_v0)) := by
  show (cfg1.win 5).cut (grid1.coords t) ((dat1 V c).after 5 t) = _
  rw [after1_5]
  unfold out1_5
  rw [View.canon_unit_zero zero_offsets]
  simp only [View.ld_unit_zero (S := S128x4096) zero_offsets]
  have p0 := place0 t; have p1 := place1 t; have p2 := place2 t
  have p3 := place3 t; have p4 := place4 t; have p5 := place5 t
  funext y
  obtain ⟨r, j, rfl⟩ : ∃ (r : Fin 128) (j : Fin 4096), y = ix2 r j := ⟨y 0, y 1, eq_ix2 y⟩
  have hemb : ((cfg1.win 5).blk t).view.emb (ix2 r j) = ix2 (rowAt t r) j := by
    funext a; apply Fin.ext
    match a with
    | ⟨0, _⟩ => show win1_5.index t (0 : Fin 2) * 128 + 1 * r.val = t.val * 128 + r.val; have := p5.1; omega
    | ⟨1, _⟩ => show win1_5.index t (1 : Fin 2) * 4096 + 1 * j.val = j.val; have := p5.2; omega
  show k1_pay2 (iblk1 V c 0 t) (iblk1 V c 1 t) (iblk1 V c 2 t) (iblk1 V c 3 t) (iblk1 V c 4 t) (ix2 r j)
    = attnOut (Ideal.ofBits .f32 0x3E000000#32) (Ideal.ofBits .f32 0xFF800000#32) (V c main_call0_v2_0) (V c main_call0_v2_1) (V c main_call0_v2_2) (V c main_call0_v3) (V c main_call0_v0)
        (((cfg1.win 5).blk t).view.emb (ix2 r j))
  rw [hemb]
  refine out_entry (V c main_call0_v2_0) (V c main_call0_v2_1) (V c main_call0_v2_2) (V c main_call0_v3) (V c main_call0_v0)
    (iblk1 V c 0 t) (iblk1 V c 1 t) (iblk1 V c 2 t) (iblk1 V c 3 t) (iblk1 V c 4 t) r (rowAt t r) j
    (fun j' => ?_) (fun j' => ?_) (fun j' => ?_) (fun j' => ?_) (fun j' => ?_)
  ·
    show V c main_call0_v2_0 (((cfg1.win 0).blk t).view.emb (ix2 r j')) = V c main_call0_v2_0 (ix2 (rowAt t r) j')
    refine congrArg (V c main_call0_v2_0) (funext fun a => Fin.ext ?_)
    match a with
    | ⟨0, _⟩ => show win1_0.index t (0 : Fin 2) * 128 + 1 * r.val = t.val * 128 + r.val; have := p0.1; omega
    | ⟨1, _⟩ => show win1_0.index t (1 : Fin 2) * 4096 + 1 * j'.val = j'.val; have := p0.2; omega
  ·
    show V c main_call0_v2_1 (((cfg1.win 1).blk t).view.emb (ix2 r j')) = V c main_call0_v2_1 (ix2 (rowAt t r) j')
    refine congrArg (V c main_call0_v2_1) (funext fun a => Fin.ext ?_)
    match a with
    | ⟨0, _⟩ => show win1_1.index t (0 : Fin 2) * 128 + 1 * r.val = t.val * 128 + r.val; have := p1.1; omega
    | ⟨1, _⟩ => show win1_1.index t (1 : Fin 2) * 4096 + 1 * j'.val = j'.val; have := p1.2; omega
  ·
    show V c main_call0_v2_2 (((cfg1.win 2).blk t).view.emb (ix2 r j')) = V c main_call0_v2_2 (ix2 (rowAt t r) j')
    refine congrArg (V c main_call0_v2_2) (funext fun a => Fin.ext ?_)
    match a with
    | ⟨0, _⟩ => show win1_2.index t (0 : Fin 2) * 128 + 1 * r.val = t.val * 128 + r.val; have := p2.1; omega
    | ⟨1, _⟩ => show win1_2.index t (1 : Fin 2) * 4096 + 1 * j'.val = j'.val; have := p2.2; omega
  ·
    show V c main_call0_v3 (((cfg1.win 3).blk t).view.emb (ix2 r j')) = V c main_call0_v3 (ix2 (rowAt t r) j')
    refine congrArg (V c main_call0_v3) (funext fun a => Fin.ext ?_)
    match a with
    | ⟨0, _⟩ => show win1_3.index t (0 : Fin 2) * 128 + 1 * r.val = t.val * 128 + r.val; have := p3.1; omega
    | ⟨1, _⟩ => show win1_3.index t (1 : Fin 2) * 4096 + 1 * j'.val = j'.val; have := p3.2; omega
  ·
    show V c main_call0_v0 (((cfg1.win 4).blk t).view.emb (ix2 r j')) = V c main_call0_v0 (ix2 (rowAt t r) j')
    refine congrArg (V c main_call0_v0) (funext fun a => Fin.ext ?_)
    match a with
    | ⟨0, _⟩ => show win1_4.index t (0 : Fin 2) * 128 + 1 * r.val = t.val * 128 + r.val; have := p4.1; omega
    | ⟨1, _⟩ => show win1_4.index t (1 : Fin 2) * 4096 + 1 * j'.val = j'.val; have := p4.2; omega

/-- An index of the first output lies in point t's block iff each coordinate lies in the block's range on its axis. -/
theorem mem_block5 (t : Fin cfg1.N) (i : S512x4096.Idx) :
    i ∈ ((cfg1.win 5).blk t).view.set ↔ ∀ a : Fin 2, win1_5.index t a * S128x4096.size a ≤ (i a).val
      ∧ (i a).val < win1_5.index t a * S128x4096.size a + S128x4096.size a := by
  show i ∈ ((View.whole main_call0_v4_0).slice (win1_5.rect t)).set ↔ _
  rw [View.set_slice_whole, Rect.mem_set_unit]
  exact Iff.rfl

/-- Row b of the first output is written by point b / 128: the 4 blocks of 128 rows tile the 512 rows. -/
theorem cover5 (i : S512x4096.Idx) :
    ∃ t : Fin cfg1.N, (cfg1.win 5).flush t = true ∧ i ∈ ((cfg1.win 5).blk t).view.set := by
  have hN : grid1.N = 4 := N_1
  have h0 : (i 0).val < 512 := (i 0).isLt
  have h1 : (i 1).val < 4096 := (i 1).isLt
  obtain ⟨t, ht⟩ : ∃ t : Fin cfg1.N, t.val = (i 0).val / 128 :=
    ⟨⟨(i 0).val / 128, by show (i 0).val / 128 < grid1.N; rw [hN]; omega⟩, rfl⟩
  refine ⟨t, flush1_5 t, ?_⟩
  rw [mem_block5]
  have hp := place5 t
  intro a
  match a with
  | ⟨0, _⟩ => show win1_5.index t (0 : Fin 2) * 128 ≤ (i 0).val ∧ (i 0).val < win1_5.index t (0 : Fin 2) * 128 + 128; have := hp.1; omega
  | ⟨1, _⟩ => show win1_5.index t (1 : Fin 2) * 4096 ≤ (i 1).val ∧ (i 1).val < win1_5.index t (1 : Fin 2) * 4096 + 4096; have := hp.2; omega

/-- The first output array after the region: the gated output of every row. -/
theorem attn5 (c : Dev nD) :
    (dat1 V c).arrAt 5 cfg1.N
      = attnOut (Ideal.ofBits .f32 0x3E000000#32) (Ideal.ofBits .f32 0xFF800000#32) (V c main_call0_v2_0) (V c main_call0_v2_1) (V c main_call0_v2_2) (V c main_call0_v3) (V c main_call0_v0) :=
  (dat1 V c).arrAt_eq_of_cover 5 _ (fun t _ => flushed5_eq V c t) cover5

/-! ### The second output: the attention weights -/

/-- What point t writes back to the second output is block row t of the attention weights. -/
theorem flushed6_eq (c : Dev nD) (t : Fin cfg1.N) :
    (dat1 V c).flushed 6 t
      = ((cfg1.win 6).blk t).view.read (Elt Ideal)
          (attnWeights (Ideal.ofBits .f32 0x3E000000#32) (Ideal.ofBits .f32 0xFF800000#32) (V c main_call0_v2_0) (V c main_call0_v2_1) (V c main_call0_v3)) := by
  show (cfg1.win 6).cut (grid1.coords t) ((dat1 V c).after 6 t) = _
  rw [after1_6]
  unfold out1_6
  rw [View.canon_unit_zero zero_offsets]
  simp only [View.ld_unit_zero (S := S128x4096) zero_offsets]
  have p0 := place0 t; have p1 := place1 t; have p3 := place3 t; have p6 := place6 t
  funext y
  obtain ⟨r, j, rfl⟩ : ∃ (r : Fin 128) (j : Fin 4096), y = ix2 r j := ⟨y 0, y 1, eq_ix2 y⟩
  have hemb : ((cfg1.win 6).blk t).view.emb (ix2 r j) = ix2 (rowAt t r) j := by
    funext a; apply Fin.ext
    match a with
    | ⟨0, _⟩ => show win1_6.index t (0 : Fin 2) * 128 + 1 * r.val = t.val * 128 + r.val; have := p6.1; omega
    | ⟨1, _⟩ => show win1_6.index t (1 : Fin 2) * 4096 + 1 * j.val = j.val; have := p6.2; omega
  show k1_pay3 (iblk1 V c 0 t) (iblk1 V c 1 t) (iblk1 V c 3 t) (ix2 r j)
    = attnWeights (Ideal.ofBits .f32 0x3E000000#32) (Ideal.ofBits .f32 0xFF800000#32) (V c main_call0_v2_0) (V c main_call0_v2_1) (V c main_call0_v3)
        (((cfg1.win 6).blk t).view.emb (ix2 r j))
  rw [hemb]
  refine weights_entry (V c main_call0_v2_0) (V c main_call0_v2_1) (V c main_call0_v3)
    (iblk1 V c 0 t) (iblk1 V c 1 t) (iblk1 V c 3 t) r (rowAt t r) j (fun j' => ?_) (fun j' => ?_) (fun j' => ?_)
  ·
    show V c main_call0_v2_0 (((cfg1.win 0).blk t).view.emb (ix2 r j')) = V c main_call0_v2_0 (ix2 (rowAt t r) j')
    refine congrArg (V c main_call0_v2_0) (funext fun a => Fin.ext ?_)
    match a with
    | ⟨0, _⟩ => show win1_0.index t (0 : Fin 2) * 128 + 1 * r.val = t.val * 128 + r.val; have := p0.1; omega
    | ⟨1, _⟩ => show win1_0.index t (1 : Fin 2) * 4096 + 1 * j'.val = j'.val; have := p0.2; omega
  ·
    show V c main_call0_v2_1 (((cfg1.win 1).blk t).view.emb (ix2 r j')) = V c main_call0_v2_1 (ix2 (rowAt t r) j')
    refine congrArg (V c main_call0_v2_1) (funext fun a => Fin.ext ?_)
    match a with
    | ⟨0, _⟩ => show win1_1.index t (0 : Fin 2) * 128 + 1 * r.val = t.val * 128 + r.val; have := p1.1; omega
    | ⟨1, _⟩ => show win1_1.index t (1 : Fin 2) * 4096 + 1 * j'.val = j'.val; have := p1.2; omega
  ·
    show V c main_call0_v3 (((cfg1.win 3).blk t).view.emb (ix2 r j')) = V c main_call0_v3 (ix2 (rowAt t r) j')
    refine congrArg (V c main_call0_v3) (funext fun a => Fin.ext ?_)
    match a with
    | ⟨0, _⟩ => show win1_3.index t (0 : Fin 2) * 128 + 1 * r.val = t.val * 128 + r.val; have := p3.1; omega
    | ⟨1, _⟩ => show win1_3.index t (1 : Fin 2) * 4096 + 1 * j'.val = j'.val; have := p3.2; omega

/-- An index of the second output lies in point t's block iff each coordinate lies in the block's range on its axis. -/
theorem mem_block6 (t : Fin cfg1.N) (i : S512x4096.Idx) :
    i ∈ ((cfg1.win 6).blk t).view.set ↔ ∀ a : Fin 2, win1_6.index t a * S128x4096.size a ≤ (i a).val
      ∧ (i a).val < win1_6.index t a * S128x4096.size a + S128x4096.size a := by
  show i ∈ ((View.whole main_call0_v4_1).slice (win1_6.rect t)).set ↔ _
  rw [View.set_slice_whole, Rect.mem_set_unit]
  exact Iff.rfl

/-- Row b of the second output is written by point b / 128: the 4 blocks of 128 rows tile the 512 rows. -/
theorem cover6 (i : S512x4096.Idx) :
    ∃ t : Fin cfg1.N, (cfg1.win 6).flush t = true ∧ i ∈ ((cfg1.win 6).blk t).view.set := by
  have hN : grid1.N = 4 := N_1
  have h0 : (i 0).val < 512 := (i 0).isLt
  have h1 : (i 1).val < 4096 := (i 1).isLt
  obtain ⟨t, ht⟩ : ∃ t : Fin cfg1.N, t.val = (i 0).val / 128 :=
    ⟨⟨(i 0).val / 128, by show (i 0).val / 128 < grid1.N; rw [hN]; omega⟩, rfl⟩
  refine ⟨t, flush1_6 t, ?_⟩
  rw [mem_block6]
  have hp := place6 t
  intro a
  match a with
  | ⟨0, _⟩ => show win1_6.index t (0 : Fin 2) * 128 ≤ (i 0).val ∧ (i 0).val < win1_6.index t (0 : Fin 2) * 128 + 128; have := hp.1; omega
  | ⟨1, _⟩ => show win1_6.index t (1 : Fin 2) * 4096 ≤ (i 1).val ∧ (i 1).val < win1_6.index t (1 : Fin 2) * 4096 + 4096; have := hp.2; omega

/-- The second output array after the region: the attention weights of every row. -/
theorem attn6 (c : Dev nD) :
    (dat1 V c).arrAt 6 cfg1.N
      = attnWeights (Ideal.ofBits .f32 0x3E000000#32) (Ideal.ofBits .f32 0xFF800000#32) (V c main_call0_v2_0) (V c main_call0_v2_1) (V c main_call0_v3) :=
  (dat1 V c).arrAt_eq_of_cover 6 _ (fun t _ => flushed6_eq V c t) cover6

end Cert.KernelIdeal.AttnValue

end
-- ==== Proof.KernelValue.lean ====
/-
  The kernel program's two results as functions of its five arguments.

  The program is a reshape of x (and a change of float format, the identity on extended reals), the projection region,
  a reshape of the mask, the attention region, and two reshapes of the region's outputs. Reading each piece —
  the reshapes at an index, the projection region as a linear layer on every row, the attention region as the weights
  and the gated output of every row — and composing them gives the two results as the specification's result0 and
  result1 of the argument arrays.
-/
import proofs.«139184_j47579647705483_2_alg».proof.Proof.HostSide
import proofs.«139184_j47579647705483_2_alg».proof.Proof.ProjValue
import proofs.«139184_j47579647705483_2_alg».proof.Proof.AttnValue

set_option maxRecDepth 16384

noncomputable section

namespace Cert.KernelIdeal.KernelValue

open Cert.KernelIdeal Idealize.ShloMosaic Idealize.ShloMosaic.TcCoe Idealize.SL.Sem Idealize.ShloMosaic.ValueIdx Cert.Attention

variable (m : (ℓ : Loc nD τ sig) → Buf (Elt Ideal) ℓ) (ρ : Dev nD → PrngReg)

/-- The three projections as the attention region finds them: linear layers on the rows of the flattened x. -/
theorem q_entry (c : Dev nD) : Gen.V3 m ρ c main_call0_v2_0
    = project (flatten (m ((c : Thread nD τ).loc main_arg0))) (m ((c : Thread nD τ).loc main_arg2)) := by
  rw [HostSide.entry1_q, ProjValue.proj4 (Gen.V1 m ρ) c, HostSide.entry0_x, HostSide.entry0_wq]
theorem k_entry (c : Dev nD) : Gen.V3 m ρ c main_call0_v2_1
    = project (flatten (m ((c : Thread nD τ).loc main_arg0))) (m ((c : Thread nD τ).loc main_arg3)) := by
  rw [HostSide.entry1_k, ProjValue.proj5 (Gen.V1 m ρ) c, HostSide.entry0_x, HostSide.entry0_wk]
theorem v_entry (c : Dev nD) : Gen.V3 m ρ c main_call0_v2_2
    = project (flatten (m ((c : Thread nD τ).loc main_arg0))) (m ((c : Thread nD τ).loc main_arg4)) := by
  rw [HostSide.entry1_v, ProjValue.proj6 (Gen.V1 m ρ) c, HostSide.entry0_x, HostSide.entry0_wv]

/-- The first result: the gated output, reshaped. -/
theorem res0 (c : Dev nD) : Gen.W5 m ρ c (Proc.devRef .tc main_v0_0)
    = result0 (Ideal.ofBits .f32 0x3E000000#32) (Ideal.ofBits .f32 0xFF800000#32)
        (m ((c : Thread nD τ).loc main_arg0)) (m ((c : Thread nD τ).loc main_arg1))
        (m ((c : Thread nD τ).loc main_arg2)) (m ((c : Thread nD τ).loc main_arg3)) (m ((c : Thread nD τ).loc main_arg4)) := by
  rw [HostSide.exit_res0, AttnValue.attn5 (Gen.V3 m ρ) c, q_entry, k_entry, v_entry, HostSide.entry1_mask, HostSide.entry1_x]
  rfl

/-- The second result: the attention weights, reshaped. -/
theorem res1 (c : Dev nD) : Gen.W5 m ρ c (Proc.devRef .tc main_v0_1)
    = result1 (Ideal.ofBits .f32 0x3E000000#32) (Ideal.ofBits .f32 0xFF800000#32)
        (m ((c : Thread nD τ).loc main_arg0)) (m ((c : Thread nD τ).loc main_arg1))
        (m ((c : Thread nD τ).loc main_arg2)) (m ((c : Thread nD τ).loc main_arg3)) := by
  rw [HostSide.exit_res1, AttnValue.attn6 (Gen.V3 m ρ) c, q_entry, k_entry, HostSide.entry1_mask]
  rfl

/-- Every weakly fair run of the kernel program ends with the two results at the specification of the arguments, the
    arguments unchanged. -/
theorem run : θ_run defs (onTc (τ := τ) (main (F := Ideal))) ⟨m, fun _ => 0, ρ⟩ (fun r => ∀ c : Dev nD,
      r.2.mem ((c.tc : Thread nD τ).loc main_v0_0)
        = result0 (Ideal.ofBits .f32 0x3E000000#32) (Ideal.ofBits .f32 0xFF800000#32)
            (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_v0_1)
        = result1 (Ideal.ofBits .f32 0x3E000000#32) (Ideal.ofBits .f32 0xFF800000#32)
            (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (res0 m ρ c), (h c).2.1.trans (res1 m ρ c), (h c).2.2⟩)
    (HostSide.run_results m ρ)

end Cert.KernelIdeal.KernelValue

end
-- ==== Proof.RefValue.lean ====
/-
  The reference program computes the attention function of Attention.lean.

  The reference is a chain of array operations; each stage, read at coordinates, is one line of the
  specification: the reshaped input is the flattened tile, the three products with the transposed weights
  are the three linear layers, the batched product over the last axes times the constant times the mask is
  the score, the maximum taken from the value lo and the maximum with lo again is the peak, then the
  exponential of the distance, its sum, the quotient (the second result), the mix with v, and after the
  transposition the product with the input (the first result).
-/
import proofs.«139184_j47579647705483_2_alg».proof.Proof.Gen.ReferenceIdeal.Read
import proofs.«139184_j47579647705483_2_alg».proof.Proof.Attention
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attention
open scoped BigOperators

/-- The two kinds of argument: a [512, 1, 64, 64] array and a [4096, 4096] weight. -/
abbrev T4 := (⟨S512x1x64x64, .f32⟩ : BufTy).Contents (Elt Ideal)
abbrev TW := (⟨S4096x4096, .f32⟩ : BufTy).Contents (Elt Ideal)

/-! ## The flattened input and the three linear layers -/

/-- Position 4096·b + j of the [512, 1, 64, 64] array is entry (b, 0, j / 64, j % 64). -/
theorem v0_eq (x0 : T4) : val_main_v0 (F := Ideal) x0 = flatten x0 := by
  funext i
  rw [val_main_v0_apply]
  show x0 _ = x0 _
  refine congrArg x0 (funext fun a => Fin.ext ?_)
  have h0 : (i 0).val < 512 := (i 0).isLt
  have h1 : (i 1).val < 4096 := (i 1).isLt
  match a with
  | ⟨0, _⟩ => show ((i 0).val * 4096 + (i 1).val) / 4096 = (i 0).val; omega
  | ⟨1, _⟩ => rfl
  | ⟨2, _⟩ => show ((i 0).val * 4096 + (i 1).val) / 64 % 64 = (i 1).val / 64; omega
  | ⟨3, _⟩ => show ((i 0).val * 4096 + (i 1).val) % 64 = (i 1).val % 64; omega

/-- The product with the transposed weight is the linear layer on every row. -/
theorem v2_eq (x0 : T4) (x2 : TW) : val_main_v2 (F := Ideal) x0 x2 = project (flatten x0) x2 := by
  funext i
  rw [val_main_v2_apply, v0_eq]
  show _ = ∑ k : Fin 4096, flatten x0 (ix2 (i 0) k) * x2 (ix2 (i 1) k)
  refine Finset.sum_congr rfl fun k _ => ?_
  rw [val_main_v1_apply]
  have el : lidx_main_v2 i k = ix2 (i 0) k := funext fun a => by
    match a with
    | ⟨0, _⟩ => rfl
    | ⟨1, _⟩ => rfl
  have er : idx_main_v1 (ridx_main_v2 i k) = ix2 (i 1) k := funext fun a => by
    match a with
    | ⟨0, _⟩ => rfl
    | ⟨1, _⟩ => rfl
  rw [el, er]
  rfl

theorem v5_eq (x0 : T4) (x3 : TW) : val_main_v5 (F := Ideal) x0 x3 = project (flatten x0) x3 := by
  funext i
  rw [val_main_v5_apply, v0_eq]
  show _ = ∑ k : Fin 4096, flatten x0 (ix2 (i 0) k) * x3 (ix2 (i 1) k)
  refine Finset.sum_congr rfl fun k _ => ?_
  rw [val_main_v4_apply]
  have el : lidx_main_v5 i k = ix2 (i 0) k := funext fun a => by
    match a with
    | ⟨0, _⟩ => rfl
    | ⟨1, _⟩ => rfl
  have er : idx_main_v4 (ridx_main_v5 i k) = ix2 (i 1) k := funext fun a => by
    match a with
    | ⟨0, _⟩ => rfl
    | ⟨1, _⟩ => rfl
  rw [el, er]
  rfl

theorem v8_eq (x0 : T4) (x4 : TW) : val_main_v8 (F := Ideal) x0 x4 = project (flatten x0) x4 := by
  funext i
  rw [val_main_v8_apply, v0_eq]
  show _ = ∑ k : Fin 4096, flatten x0 (ix2 (i 0) k) * x4 (ix2 (i 1) k)
  refine Finset.sum_congr rfl fun k _ => ?_
  rw [val_main_v7_apply]
  have el : lidx_main_v8 i k = ix2 (i 0) k := funext fun a => by
    match a with
    | ⟨0, _⟩ => rfl
    | ⟨1, _⟩ => rfl
  have er : idx_main_v7 (ridx_main_v8 i k) = ix2 (i 1) k := funext fun a => by
    match a with
    | ⟨0, _⟩ => rfl
    | ⟨1, _⟩ => rfl
  rw [el, er]
  rfl

/-- Read as [512, 64, 64], entry (b, h, f) of a layer's output is its entry 64·h + f of row b. -/
theorem v3_at (x0 : T4) (x2 : TW) (b : Fin 512) (h f : Fin 64) :
    val_main_v3 (F := Ideal) x0 x2 (ix3 b h f) = project (flatten x0) x2 (ix2 b (flat h f)) := by
  rw [val_main_v3_apply, v2_eq]
  refine congrArg (project (flatten x0) x2) (funext fun a => Fin.ext ?_)
  have hb : b.val < 512 := b.isLt
  have hh : h.val < 64 := h.isLt
  have hf : f.val < 64 := f.isLt
  match a with
  | ⟨0, _⟩ => show ((b.val * 64 + h.val) * 64 + f.val) / 4096 = b.val; omega
  | ⟨1, _⟩ => show ((b.val * 64 + h.val) * 64 + f.val) % 4096 = h.val * 64 + f.val; omega

theorem v6_at (x0 : T4) (x3 : TW) (b : Fin 512) (h f : Fin 64) :
    val_main_v6 (F := Ideal) x0 x3 (ix3 b h f) = project (flatten x0) x3 (ix2 b (flat h f)) := by
  rw [val_main_v6_apply, v5_eq]
  refine congrArg (project (flatten x0) x3) (funext fun a => Fin.ext ?_)
  have hb : b.val < 512 := b.isLt
  have hh : h.val < 64 := h.isLt
  have hf : f.val < 64 := f.isLt
  match a with
  | ⟨0, _⟩ => show ((b.val * 64 + h.val) * 64 + f.val) / 4096 = b.val; omega
  | ⟨1, _⟩ => show ((b.val * 64 + h.val) * 64 + f.val) % 4096 = h.val * 64 + f.val; omega

theorem v9_at (x0 : T4) (x4 : TW) (b : Fin 512) (h f : Fin 64) :
    val_main_v9 (F := Ideal) x0 x4 (ix3 b h f) = project (flatten x0) x4 (ix2 b (flat h f)) := by
  rw [val_main_v9_apply, v8_eq]
  refine congrArg (project (flatten x0) x4) (funext fun a => Fin.ext ?_)
  have hb : b.val < 512 := b.isLt
  have hh : h.val < 64 := h.isLt
  have hf : f.val < 64 := f.isLt
  match a with
  | ⟨0, _⟩ => show ((b.val * 64 + h.val) * 64 + f.val) / 4096 = b.val; omega
  | ⟨1, _⟩ => show ((b.val * 64 + h.val) * 64 + f.val) % 4096 = h.val * 64 + f.val; omega

/-! ## The scores -/

/-- The scores of head h of row b against every head, in the specification's words. -/
abbrev sc (x0 x1 : T4) (x2 x3 : TW) (b : Fin 512) (h : Fin 64) : Fin 64 → EReal :=
  score (Ideal.ofBits .f32 0x3E000000#32) (rowOf (project (flatten x0) x2) b) (rowOf (project (flatten x0) x3) b)
    (rowOf (flatten x1) b) h

/-- The batched product over the last axes, times the constant, times the reshaped mask, is the score. -/
theorem v14_at (x0 x1 : T4) (x2 x3 : TW) (b : Fin 512) (h g : Fin 64) :
    val_main_v14 (F := Ideal) x0 x1 x2 x3 (ix3 b h g) = sc x0 x1 x2 x3 b h g := by
  rw [val_main_v14_apply, val_main_v12_apply, val_main_v10_apply, val_main_v11_apply, val_main_cst_apply,
    val_main_v13_apply]
  have e10 : (∑ k : Fin 64, val_main_v3 (F := Ideal) x0 x2 (lidx_main_v10 (ix3 b h g) k)
        * val_main_v6 (F := Ideal) x0 x3 (ridx_main_v10 (ix3 b h g) k))
      = ∑ f : Fin 64, project (flatten x0) x2 (ix2 b (flat h f)) * project (flatten x0) x3 (ix2 b (flat g f)) := by
    refine Finset.sum_congr rfl fun k _ => ?_
    have el : lidx_main_v10 (ix3 b h g) k = ix3 b h k := funext fun a => by
      match a with
      | ⟨0, _⟩ => rfl
      | ⟨1, _⟩ => rfl
      | ⟨2, _⟩ => rfl
    have er : ridx_main_v10 (ix3 b h g) k = ix3 b g k := funext fun a => by
      match a with
      | ⟨0, _⟩ => rfl
      | ⟨1, _⟩ => rfl
      | ⟨2, _⟩ => rfl
    rw [el, er, v3_at, v6_at]
  have e13 : x1 (idx_main_v13 (ix3 b h g)) = flatten x1 (ix2 b (flat h g)) := by
    show x1 _ = x1 _
    refine congrArg x1 (funext fun a => Fin.ext ?_)
    have hb : b.val < 512 := b.isLt
    have hh : h.val < 64 := h.isLt
    have hg : g.val < 64 := g.isLt
    match a with
    | ⟨0, _⟩ => show ((b.val * 64 + h.val) * 64 + g.val) / 4096 = b.val; omega
    | ⟨1, _⟩ => rfl
    | ⟨2, _⟩ => show ((b.val * 64 + h.val) * 64 + g.val) / 64 % 64 = (h.val * 64 + g.val) / 64; omega
    | ⟨3, _⟩ => show ((b.val * 64 + h.val) * 64 + g.val) % 64 = (h.val * 64 + g.val) % 64; omega
  rw [e10, e13]
  rfl

/-! ## The softmax -/

/-- The maximum over the last axis, taken from the value lo, is the fold of max over that axis's 64 entries. -/
theorem v15_at (x0 x1 : T4) (x2 x3 : TW) (b : Fin 512) (h : Fin 64) :
    val_main_v15 (F := Ideal) x0 x1 x2 x3 (ix2 b h)
      = peak (Ideal.ofBits .f32 0xFF800000#32) (sc x0 x1 x2 x3 b h) := by
  have hs : sc x0 x1 x2 x3 b h = fun g => val_main_v14 (F := Ideal) x0 x1 x2 x3 (ix3 b h g) :=
    funext fun g => (v14_at x0 x1 x2 x3 b h g).symm
  rw [hs]
  unfold val_main_v15
  generalize val_main_v14 (F := Ideal) x0 x1 x2 x3 = y
  have hr : S512x64x64.Reduces [2] S512x64 := by decide
  refine (Host.reduce_eq_fold_single (FloatOps.maximumf (F := Ideal) (φ := .f32)) y _ reducesTo_S512x64x64_S512x64_d2 hr h_S_
    (ix2 b h)).trans ?_
  show Finset.fold max (Ideal.ofBits .f32 0xFF800000#32) (y ∘ hr.lift (ix2 b h)) (Finset.univ : Finset (Fin 64))
    = Finset.fold max (Ideal.ofBits .f32 0xFF800000#32) (fun g => y (ix3 b h g)) (Finset.univ : Finset (Fin 64))
  refine congrArg (fun f => Finset.fold max (Ideal.ofBits .f32 0xFF800000#32) f (Finset.univ : Finset (Fin 64)))
    (funext fun k => congrArg y (funext fun a => Fin.ext ?_))
  match a with
  | ⟨0, _⟩ => rfl
  | ⟨1, _⟩ => rfl
  | ⟨2, _⟩ => rfl

/-- The maximum with lo once more changes nothing: the fold already starts from lo. -/
theorem v17_at (x0 x1 : T4) (x2 x3 : TW) (b : Fin 512) (h : Fin 64) :
    val_main_v17 (F := Ideal) x0 x1 x2 x3 (ix2 b h)
      = peak (Ideal.ofBits .f32 0xFF800000#32) (sc x0 x1 x2 x3 b h) := by
  rw [val_main_v17_apply, val_main_v16_apply, val_main_cst_1_apply, v15_at]
  show max (Ideal.ofBits .f32 0xFF800000#32)
      (Finset.fold max (Ideal.ofBits .f32 0xFF800000#32) (sc x0 x1 x2 x3 b h) (Finset.univ : Finset (Fin 64)))
    = Finset.fold max (Ideal.ofBits .f32 0xFF800000#32) (sc x0 x1 x2 x3 b h) (Finset.univ : Finset (Fin 64))
  exact max_eq_right ((Finset.le_fold_max _).mpr (Or.inl le_rfl))

/-- The peak broadcast back along the last axis. -/
theorem v19_at (x0 x1 : T4) (x2 x3 : TW) (b : Fin 512) (h g : Fin 64) :
    val_main_v19 (F := Ideal) x0 x1 x2 x3 (ix3 b h g)
      = peak (Ideal.ofBits .f32 0xFF800000#32) (sc x0 x1 x2 x3 b h) := by
  rw [val_main_v19_apply, val_main_v18_apply]
  have e : idx_main_v18 (idx_main_v19 (ix3 b h g)) = ix2 b h := funext fun a => by
    match a with
    | ⟨0, _⟩ => rfl
    | ⟨1, _⟩ => rfl
  rw [e, v17_at]

/-- The exponential of the distance to the peak. -/
theorem v21_at (x0 x1 : T4) (x2 x3 : TW) (b : Fin 512) (h g : Fin 64) :
    val_main_v21 (F := Ideal) x0 x1 x2 x3 (ix3 b h g)
      = lifted (Ideal.ofBits .f32 0xFF800000#32) (sc x0 x1 x2 x3 b h) g := by
  rw [val_main_v21_apply, val_main_v20_apply, v19_at, v14_at]
  rfl

/-- The sum over the last axis, from the zero word, is the sum of the 64 exponentials. -/
theorem v22_at (x0 x1 : T4) (x2 x3 : TW) (b : Fin 512) (h : Fin 64) :
    val_main_v22 (F := Ideal) x0 x1 x2 x3 (ix2 b h)
      = ∑ g : Fin 64, lifted (Ideal.ofBits .f32 0xFF800000#32) (sc x0 x1 x2 x3 b h) g := by
  rw [val_main_v22_apply, val_main_cst_2_apply]
  show Ideal.ofBits .f32 0x00000000#32 + _ = _
  rw [Ideal.ofBits_zero_f32, zero_add]
  refine Finset.sum_congr rfl fun k _ => ?_
  have e : idx_main_v22 (ix2 b h) k = ix3 b h k := funext fun a => by
    match a with
    | ⟨0, _⟩ => rfl
    | ⟨1, _⟩ => rfl
    | ⟨2, _⟩ => rfl
  rw [e, v21_at]

/-- The quotient is the softmax: the attention weight of head h on head g. -/
theorem v25_at (x0 x1 : T4) (x2 x3 : TW) (b : Fin 512) (h g : Fin 64) :
    val_main_v25 (F := Ideal) x0 x1 x2 x3 (ix3 b h g)
      = soft (Ideal.ofBits .f32 0xFF800000#32) (sc x0 x1 x2 x3 b h) g := by
  rw [val_main_v25_apply, val_main_v24_apply, val_main_v23_apply]
  have e : idx_main_v23 (idx_main_v24 (ix3 b h g)) = ix2 b h := funext fun a => by
    match a with
    | ⟨0, _⟩ => rfl
    | ⟨1, _⟩ => rfl
  rw [e, v22_at, v21_at]
  rfl

/-- The second result is the attention weights. -/
theorem ref_result1 (x0 x1 : (⟨S512x1x64x64, .f32⟩ : BufTy).Contents (Elt Ideal))
    (x2 x3 : (⟨S4096x4096, .f32⟩ : BufTy).Contents (Elt Ideal)) :
    Read.val_main_v25 (F := Ideal) x0 x1 x2 x3
      = Cert.Attention.result1 (Ideal.ofBits .f32 0x3E000000#32) (Ideal.ofBits .f32 0xFF800000#32) x0 x1 x2 x3 := by
  funext i
  obtain ⟨b, h, g, rfl⟩ : ∃ (b : Fin 512) (h g : Fin 64), i = ix3 b h g := ⟨i 0, i 1, i 2, eq_ix3 i⟩
  rw [v25_at]
  show soft _ (sc x0 x1 x2 x3 b h) g
    = soft (Ideal.ofBits .f32 0xFF800000#32)
        (score (Ideal.ofBits .f32 0x3E000000#32) (rowOf (project (flatten x0) x2) b) (rowOf (project (flatten x0) x3) b)
          (rowOf (flatten x1) b) (hi (flat h g))) (lo (flat h g))
  rw [hi_flat, lo_flat]

/-! ## The mixed values and the first result -/

/-- The batched product of the weights with v: o(h, f) = Σ_g w(h, g) · v(g, f). -/
theorem v26_at (x0 x1 : T4) (x2 x3 x4 : TW) (b : Fin 512) (h f : Fin 64) :
    val_main_v26 (F := Ideal) x0 x1 x2 x3 x4 (ix3 b h f)
      = mixed (fun h' g => soft (Ideal.ofBits .f32 0xFF800000#32) (sc x0 x1 x2 x3 b h') g)
          (rowOf (project (flatten x0) x4) b) h f := by
  rw [val_main_v26_apply]
  show _ = ∑ g : Fin 64, soft (Ideal.ofBits .f32 0xFF800000#32) (sc x0 x1 x2 x3 b h) g
      * project (flatten x0) x4 (ix2 b (flat g f))
  refine Finset.sum_congr rfl fun k _ => ?_
  have el : lidx_main_v26 (ix3 b h f) k = ix3 b h k := funext fun a => by
    match a with
    | ⟨0, _⟩ => rfl
    | ⟨1, _⟩ => rfl
    | ⟨2, _⟩ => rfl
  have er : ridx_main_v26 (ix3 b h f) k = ix3 b k f := funext fun a => by
    match a with
    | ⟨0, _⟩ => rfl
    | ⟨1, _⟩ => rfl
    | ⟨2, _⟩ => rfl
  rw [el, er, v25_at, v9_at]

/-- After the transposition and the reshape, entry (b, 0, p, q) is o(q, p). -/
theorem v28_at (x0 x1 : T4) (x2 x3 x4 : TW) (b : Fin 512) (z : Fin 1) (p q : Fin 64) :
    val_main_v28 (F := Ideal) x0 x1 x2 x3 x4 (ix4 b z p q)
      = val_main_v26 (F := Ideal) x0 x1 x2 x3 x4 (ix3 b q p) := by
  rw [val_main_v28_apply, val_main_v27_apply]
  refine congrArg (val_main_v26 (F := Ideal) x0 x1 x2 x3 x4) (funext fun a => Fin.ext ?_)
  have hb : b.val < 512 := b.isLt
  have hz : z.val < 1 := z.isLt
  have hp : p.val < 64 := p.isLt
  have hq : q.val < 64 := q.isLt
  match a with
  | ⟨0, _⟩ => show (((b.val * 1 + z.val) * 64 + p.val) * 64 + q.val) / 4096 = b.val; omega
  | ⟨1, _⟩ => show (((b.val * 1 + z.val) * 64 + p.val) * 64 + q.val) % 64 = q.val; omega
  | ⟨2, _⟩ => show (((b.val * 1 + z.val) * 64 + p.val) * 64 + q.val) / 64 % 64 = p.val; omega

/-- The first result is the gated output. -/
theorem ref_result0 (x0 x1 : (⟨S512x1x64x64, .f32⟩ : BufTy).Contents (Elt Ideal))
    (x2 x3 x4 : (⟨S4096x4096, .f32⟩ : BufTy).Contents (Elt Ideal)) :
    Read.val_main_v29 (F := Ideal) x0 x1 x2 x3 x4
      = Cert.Attention.result0 (Ideal.ofBits .f32 0x3E000000#32) (Ideal.ofBits .f32 0xFF800000#32) x0 x1 x2 x3 x4 := by
  funext i
  obtain ⟨b, z, p, q, rfl⟩ : ∃ (b : Fin 512) (z : Fin 1) (p q : Fin 64), i = ix4 b z p q :=
    ⟨i 0, i 1, i 2, i 3, eq_ix4 i⟩
  rw [val_main_v29_apply, v28_at, v26_at]
  have hz : z = 0 := Fin.ext (by have := z.isLt; omega)
  subst hz
  show x0 (ix4 b 0 p q) * _
    = x0 (ix4 b 0 (hi (flat p q)) (lo (flat p q)))
      * mixed (fun h' g => soft (Ideal.ofBits .f32 0xFF800000#32) (sc x0 x1 x2 x3 b h') g)
          (rowOf (project (flatten x0) x4) b) (lo (flat p q)) (hi (flat p q))
  rw [hi_flat, lo_flat]

end Cert.ReferenceIdeal.RefValue

end
-- ==== Proof.lean ====
/-
  The certificate of a fused attention layer: a kernel program against its reference, at the ideal values.

  Both programs take x and a mask, each [512, 1, 64, 64], and three [4096, 4096] weights. A row of x (4096 numbers, a
  64 × 64 tile) is projected by three linear layers without bias to q, k, v; head h is scored against head g by
  (Σ_f q(h, f)·k(g, f))·(1/8)·mask(h, g); each row of scores is normalized by a softmax; the values are mixed by the
  weights and the result, transposed, gates x. The results are the gated output and the weights.

  The kernel program computes this in two regions (the three projections over 16 blocks of weight rows, then the
  attention over 4 blocks of 128 rows) between reshapes; the reference computes it with whole-array operations. On
  extended reals the two are the same function of the arguments, index by index: the kernel's products into a zero
  accumulator and the reference's dot products are the same finite sums, the reference's transposes of the weights and
  its extra maximum with the value the row maximum already starts from change nothing, and changes of float format are
  the identity. No law that needs finite inputs is used, so the precondition is never opened.

  * The three frames: the two kernel programs by their generated frame certificates, the reference by its generated run.
  * The idealized kernel is the kernel's own text read at the ideal values: the ideal pass rewrote nothing.
  * The two runs end at one function of arguments that agree (Attention.result0, Attention.result1).
-/
import proofs.«139184_j47579647705483_2_alg».proof.Defs
import proofs.«139184_j47579647705483_2_alg».proof.Proof.Gen.Kernel
import proofs.«139184_j47579647705483_2_alg».proof.Proof.Gen.Kernel.Skeleton
import proofs.«139184_j47579647705483_2_alg».proof.Proof.Gen.Kernel.Launch
import proofs.«139184_j47579647705483_2_alg».proof.Proof.Gen.Kernel.Points
import proofs.«139184_j47579647705483_2_alg».proof.Proof.Gen.Kernel.Frame
import proofs.«139184_j47579647705483_2_alg».proof.Proof.Gen.KernelIdeal
import proofs.«139184_j47579647705483_2_alg».proof.Proof.Gen.KernelIdeal.Skeleton
import proofs.«139184_j47579647705483_2_alg».proof.Proof.Gen.KernelIdeal.Launch
import proofs.«139184_j47579647705483_2_alg».proof.Proof.Gen.KernelIdeal.Points
import proofs.«139184_j47579647705483_2_alg».proof.Proof.Gen.KernelIdeal.Frame
import proofs.«139184_j47579647705483_2_alg».proof.Proof.Gen.ReferenceIdeal
import proofs.«139184_j47579647705483_2_alg».proof.Proof.Gen.Pre_finite_inputs
import proofs.«139184_j47579647705483_2_alg».proof.Proof.Gen.ReferenceIdeal.Run
import proofs.«139184_j47579647705483_2_alg».proof.Proof.Gen.ReferenceIdeal.Read
import proofs.«139184_j47579647705483_2_alg».proof.Proof.KernelValue
import proofs.«139184_j47579647705483_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel program and the reference end with the same two results: the gated output
    and the attention weights of the arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.ReferenceIdeal.RefValue.ref_result0,
      (hagree c).1, (hagree c).2.1, (hagree c).2.2.1, (hagree c).2.2.2.1, (hagree c).2.2.2.2]
  · rw [Cert.ReferenceIdeal.Read.val_main_v25_eq, Cert.ReferenceIdeal.RefValue.ref_result1,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
